-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S1x64 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x128 .f32) (main_arg1 : FVec F S64x128 .f32) (main_arg2 : FVec F S64 .f32) (main_arg3 : FVec F S64x64 .f32) (main_arg4 : FVec F S64 .f32) (main_arg5 : FVec F S1x64 .f32) (main_arg6 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S16384x128 : Shape := ⟨2, ![16384, 128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S8x16384 : Shape := ⟨2, ![8, 16384]⟩
abbrev S4096x128 : Shape := ⟨2, ![4096, 128]⟩
abbrev S8x64 : Shape := ⟨2, ![8, 64]⟩
abbrev S4096x64 : Shape := ⟨2, ![4096, 64]⟩
abbrev S8x4096 : Shape := ⟨2, ![8, 4096]⟩
abbrev S_ : Shape := ⟨0, ![]⟩
abbrev S16384 : Shape := ⟨1, ![16384]⟩
abbrev S16384x1 : Shape := ⟨2, ![16384, 1]⟩

abbrev nBuf : Space → Nat
  | .hbm => 16
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1x64, .f32⟩
  | .hbm, ⟨9, _⟩ => ⟨S8x16384, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S64x128, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S8x16384, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

class Facts₀ : Prop where
  shapeCasts_S64_S1x64 : S64.ShapeCasts S1x64
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  inb_S4096x128_S4096x128_0_0 : ∀ a, (![0, 0] : Fin 2 → Nat) a + S4096x128.size a ≤ S4096x128.size a
  h_S4096x128 : 0 < S4096x128.numel
  broadcasts_S1x64_S4096x64 : S1x64.Broadcasts S4096x64
  inb_S8x16384_S8x4096_0_0 : ∀ a, (![0, 0] : Fin 2 → Nat) a + S8x4096.size a ≤ S8x16384.size a
  h_S8x4096 : 0 < S8x4096.numel
  inb_S8x16384_S8x4096_0_4096 : ∀ a, (![0, 4096] : Fin 2 → Nat) a + S8x4096.size a ≤ S8x16384.size a
  inb_S8x16384_S8x4096_0_8192 : ∀ a, (![0, 8192] : Fin 2 → Nat) a + S8x4096.size a ≤ S8x16384.size a
  inb_S8x16384_S8x4096_0_12288 : ∀ a, (![0, 12288] : Fin 2 → Nat) a + S8x4096.size a ≤ S8x16384.size a
  reducesTo_S8x16384_S16384_d0 : S8x16384.ReducesTo [0] S16384
  h_S_ : 0 < S_.numel
  shapeCasts_S1_S_ : S1.ShapeCasts S_
  bcast_S_S16384 : S_.BroadcastsInDim S16384 (![] : Fin 0 → Fin S16384.rank)
  shapeCasts_S16384_S16384x1 : S16384.ShapeCasts S16384x1
  dot_S4096x128_S64x128_S4096x64_1_1_0_0_n_n_wf : DotDims.WF S4096x128 S64x128 S4096x64 [1] [1] [0] [0] [] []
  dot_S4096x64_S64x64_S4096x64_1_1_0_0_n_n_wf : DotDims.WF S4096x64 S64x64 S4096x64 [1] [1] [0] [0] [] []
  dot_S8x64_S4096x64_S8x4096_1_1_0_0_n_n_wf : DotDims.WF S8x64 S4096x64 S8x4096 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S16384x128.size a
  hwx0_2 : ∀ i : grid0.Coords, EltTy.bits .f32 = 32 ∨ (Rect.block (s := S16384x128) S4096x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S16384x128.size a
  hwx0_3 : ∀ i : grid0.Coords, EltTy.bits .f32 = 32 ∨ (Rect.block (s := S16384x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 1
  hreads0_9 : ∀ i i' : grid0.Coords, (∀ a, reads0_9 a = true → i a = i' a) → cc0_transform_9 i = cc0_transform_9 i'
  hinb0_9 : ∀ (i : grid0.Coords) a, (cc0_transform_9 i a + 1) * S8x16384.size a ≤ S8x16384.size a
  hwx0_9 : ∀ i : grid0.Coords, EltTy.bits .f32 = 32 ∨ (Rect.block (s := S8x16384) S8x16384.size (cc0_transform_9 i) (hinb0_9 i)).WholeWords (EltTy.packing .f32)

variable [Facts₀]

def dot_S4096x128_S64x128_S4096x64_1_1_0_0_n_n : DotDims S4096x128 S64x128 S4096x64 where
  lhsContracting := [1]
  rhsContracting := [1]
  lhsNonContracting := [0]
  rhsNonContracting := [0]
  lhsBatch := []
  rhsBatch := []
  wf := dot_S4096x128_S64x128_S4096x64_1_1_0_0_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S8x64_S4096x64_S8x4096_1_1_0_0_n_n : DotDims S8x64 S4096x64 S8x4096 where
  lhsContracting := [1]
  rhsContracting := [1]
  lhsNonContracting := [0]
  rhsNonContracting := [0]
  lhsBatch := []
  rhsBatch := []
  wf := dot_S8x64_S4096x64_S8x4096_1_1_0_0_n_n_wf

abbrev win0_0 : Pipeline.Window sig grid0 :=
  Pipeline.Window.ofSpec (Memref.whole main_arg0) S4096x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S4096x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S8x16384.size cc0_transform_9 reads0_9 true false 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x128 : Shape := ⟨2, ![16384, 128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S128x64 : Shape := ⟨2, ![128, 64]⟩
abbrev S16384x64 : Shape := ⟨2, ![16384, 64]⟩
abbrev S_ : Shape := ⟨0, ![]⟩
abbrev S64x1 : Shape := ⟨2, ![64, 1]⟩
abbrev S16384x1 : Shape := ⟨2, ![16384, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S128x64, .f32⟩
  | .hbm, ⟨8, _⟩ => ⟨S16384x64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384x64, .f32⟩
  | .hbm, ⟨14, _⟩ => ⟨S16384x64, .f32⟩
  | .hbm, ⟨15, _⟩ => ⟨S64x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x64, .f32⟩
  | .hbm, ⟨23, _⟩ => ⟨S64x1, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x128_S128x64_S16384x64_1_0_0_1_n_n_wf : DotDims.WF S16384x128 S128x64 S16384x64 [1] [0] [0] [1] [] []
  dot_S16384x64_S64x64_S16384x64_1_0_0_1_n_n_wf : DotDims.WF S16384x64 S64x64 S16384x64 [1] [0] [0] [1] [] []
  dot_S16384x64_S64x1_S16384x1_1_0_0_1_n_n_wf : DotDims.WF S16384x64 S64x1 S16384x1 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KernelBody.lean ====
/-
  The kernel body's triple.

  The body reads nine staged blocks — four row tiles of the batch (4096 rows of 128 features each), the two weight
  matrices of the hidden layers, their two bias rows and the output unit's weight row — and fills its output block,
  8 rows by 16384 columns, in four stores of 4096 columns each, the s-th store being the replicated output head of
  the s-th row tile.  What the output buffer holds afterwards is therefore the canonical contents of four pieces
  that tile it (`outBlock`), each piece a pure function of the loaded blocks through the skeleton's payloads.
  The body also loads each quarter of the output buffer before storing into it; nothing depends on what it reads.
-/
import proofs.«114293_g33157147525407_cont_8to1_b_505_27_alg».proof.Proof.Gen.Kernel.Launch
import proofs.«114293_g33157147525407_cont_8to1_b_505_27_alg».proof.Proof.Gen.Kernel.Skeleton
import proofs.«114293_g33157147525407_cont_8to1_b_505_27_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A row tile of the batch, whole. -/
abbrev rX : Rect S4096x128 := Rect.unit (s := S4096x128) ![0, 0] S4096x128.size inb_S4096x128_S4096x128_0_0
/-- The first layer's weights, whole. -/
abbrev rW1 : Rect S64x128 := Rect.unit (s := S64x128) ![0, 0] S64x128.size inb_S64x128_S64x128_0_0
/-- The second layer's weights, whole. -/
abbrev rW2 : Rect S64x64 := Rect.unit (s := S64x64) ![0, 0] S64x64.size inb_S64x64_S64x64_0_0
/-- A row of 64 (a bias row, the output unit's weights), whole. -/
abbrev rRow : Rect S1x64 := Rect.unit (s := S1x64) ![0, 0] S1x64.size inb_S1x64_S1x64_0_0
/-- The four quarters of the output block: columns 0–4095, 4096–8191, 8192–12287, 12288–16383. -/
abbrev rO0 : Rect S8x16384 := Rect.unit (s := S8x16384) ![0, 0] S8x4096.size inb_S8x16384_S8x4096_0_0
abbrev rO1 : Rect S8x16384 := Rect.unit (s := S8x16384) ![0, 4096] S8x4096.size inb_S8x16384_S8x4096_0_4096
abbrev rO2 : Rect S8x16384 := Rect.unit (s := S8x16384) ![0, 8192] S8x4096.size inb_S8x16384_S8x4096_0_8192
abbrev rO3 : Rect S8x16384 := Rect.unit (s := S8x16384) ![0, 12288] S8x4096.size inb_S8x16384_S8x4096_0_12288

/-! ## What the body leaves in the output block -/

/-- The quarter stored first: the head of row tile 0. -/
def piece0 (x0 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay7 (View.ld w1 rW1) (View.ld w2 rW2) (View.ld b1 rRow) (View.ld b2 rRow) (View.ld w3 rRow) (View.ld x0 rX)
/-- The second quarter: the head of row tile 1. -/
def piece1 (x1 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay9 (k0_pay3 (View.ld w2 rW2)) (k0_pay4 (View.ld b1 rRow)) (k0_pay5 (View.ld b2 rRow)) (k0_pay6 (View.ld w3 rRow))
    (k0_pay8 (View.ld w1 rW1) (View.ld x1 rX))
/-- The third quarter: the head of row tile 2. -/
def piece2 (x2 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay10 (k0_pay2 (View.ld w1 rW1)) (k0_pay3 (View.ld w2 rW2)) (k0_pay4 (View.ld b1 rRow)) (k0_pay5 (View.ld b2 rRow))
    (k0_pay6 (View.ld w3 rRow)) (View.ld x2 rX)
/-- The last quarter: the head of row tile 3. -/
def piece3 (x3 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay1 (k0_pay5 (View.ld b2 rRow)) (k0_pay6 (View.ld w3 rRow))
    (k0_pay11 (k0_pay2 (View.ld w1 rW1)) (k0_pay3 (View.ld w2 rW2)) (k0_pay4 (View.ld b1 rRow)) (View.ld x3 rX))

/-- The output block after the body, from the nine input blocks: its four stores as pieces, the last store first. -/
def outBlock (x0 x1 x2 x3 : Vec F S4096x128 .f32) (w1 : Vec F S64x128 .f32) (b1 : Vec F S1x64 .f32) (w2 : Vec F S64x64 .f32)
    (b2 : Vec F S1x64 .f32) (w3 : Vec F S1x64 .f32) : Vec F S8x16384 .f32 :=
  View.canon [⟨rO3, piece3 x3 w1 b1 w2 b2 w3⟩, ⟨rO2, piece2 x2 w1 b1 w2 b2 w3⟩, ⟨rO1, piece1 x1 w1 b1 w2 b2 w3⟩,
    ⟨rO0, piece0 x0 w1 b1 w2 b2 w3⟩]

/-- The four quarters tile the block (decided on the rectangles), so they cover it. -/
theorem cover (p3 p2 p1 p0 : Vec F S8x4096 .f32) (y : S8x16384.Idx) :
    ∃ pc ∈ ([⟨rO3, p3⟩, ⟨rO2, p2⟩, ⟨rO1, p1⟩, ⟨rO0, p0⟩] : List (View.Piece (Elt F) S8x16384 .f32)), y ∈ pc.1.set :=
  View.cover_of_tiled [⟨rO3, p3⟩, ⟨rO2, p2⟩, ⟨rO1, p1⟩, ⟨rO0, p0⟩] S8x4096.size (by rfl) y

/-! ## The body's triple -/

set_option maxHeartbeats 4000000 in
/-- The kernel body on whole staging memrefs — the nine inputs' at read contents, the output's at anything — runs to the
    continuation holding the inputs' as they were and the output's at `outBlock` of the inputs'. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S8x16384 .f32) (harg10 : arg10.IsWhole)
    (x0 x1 x2 x3 : Vec F S4096x128 .f32) (w1 : Vec F S64x128 .f32) (b1 : Vec F S1x64 .f32) (w2 : Vec F S64x64 .f32)
    (b2 : Vec F S1x64 .f32) (w3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w1 ∗ owns (c : Thread nD τ) arg6 fullShare b1
        ∗ owns (c : Thread nD τ) arg7 fullShare w2 ∗ owns (c : Thread nD τ) arg8 fullShare b2 ∗ owns (c : Thread nD τ) arg9 fullShare w3
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w1 ∗ owns (c : Thread nD τ) arg6 fullShare b1
            ∗ owns (c : Thread nD τ) arg7 fullShare w2 ∗ owns (c : Thread nD τ) arg8 fullShare b2 ∗ owns (c : Thread nD τ) arg9 fullShare w3
            ∗ owns (c : Thread nD τ) arg10 fullShare (outBlock x0 x1 x2 x3 w1 b1 w2 b2 w3)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover _ _ _ _)

end Cert.Kernel.Hand

end
-- ==== Proof.LibSharedFrameTail.lean ====
/-
  A frame run for a one-region pipeline whose INPUT windows may read one and the same array, when @main GOES ON after
  the region with straight lines of host operations.

  The library's frame run around a region asks that the windows' arrays be pairwise distinct buffers.  When a kernel
  is given one array through several input windows, the full share of that buffer is dealt between the windows at
  the region's entry (`hsplit`) and is never put together again: every window's array is read back at the window's
  own share.  The lines after the region therefore cannot be handed "every array at the full share"; here they are
  handed what such a program's lines actually touch:

  * ONE designated output window's array, which the pipeline holds at the full share (the kernel's result), and
  * the unscoped buffers that are no window's array (the buffers that bypass the region).

  `tail_lines` runs the lines from the region's exit within that set, leaving every other window's array untouched
  at its share; `θ_run_frame_shared_tail` is the frame run: every window's array ends at `Dat.arrAt w N`, every
  bypassing buffer at the lines' result from the exit contents.

  Program-free: nothing here names a kernel.
-/
import Idealize.ShloMosaic.Lib.Pipeline.FrameSuffix

noncomputable section

namespace SharedArrayFrameTail

open Idealize.ShloMosaic Idealize.ShloMosaic.Pipeline
open Idealize.SL
open Idealize.SL.BI (sProp bigSep bigSep_map bigSep_insert bigSep_erase bigSep_congr)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (sig) in
/-- The device buffers the lines after the region may touch: window `w₀`'s array and the bypassing buffers. -/
def tailSet {gr : Nat} {W : Nat} (win : Fin W → WinSpec sig gr) (w₀ : Fin W) : Finset (DevRef τ sig) :=
  insert (Proc.devRef .tc (arrRef win w₀)) ((restRefs sig win).map ⟨Proc.devRef (sig := sig) .tc, Proc.devRef_injective _⟩)

omit [Fintype P] [DecidableEq P] [∀ e, Nonempty (Val e)] in
/-- Those buffers held at `Wv`: window `w₀`'s array whole at the full share, and the bypassing buffers. -/
theorem held_tailSet {gr : Nat} {W : Nat} (win : Fin W → WinSpec sig gr) (w₀ : Fin W) (c : Dev nD) (Wv : Valuation τ sig Val) :
    (StableHlo.held (c.tc : Thread nD τ) (tailSet sig win w₀) Wv : sProp 𝕄)
      = iprop((((c.tc : Thread nD τ).loc (arrRef win w₀)) ↦{fullShare} Wv (Proc.devRef .tc (arrRef win w₀)))
          ∗ unscopedRest win c (fun b => Wv (Proc.devRef .tc b))) := by
  classical
  have hnot : Proc.devRef (τ := τ) .tc (arrRef win w₀) ∉ (restRefs sig win).map ⟨Proc.devRef (sig := sig) .tc, Proc.devRef_injective _⟩ := by
    intro h
    obtain ⟨b, hb, e⟩ := Finset.mem_map.mp h
    obtain rfl : b = arrRef win w₀ := Proc.devRef_injective (τ := τ) _ e
    exact (Finset.mem_sdiff.mp hb).2 (Finset.mem_image.mpr ⟨w₀, Finset.mem_univ _, rfl⟩)
  unfold StableHlo.held tailSet unscopedRest
  rw [bigSep_insert hnot, bigSep_map]
  rfl

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "𝔻" => Pipeline.defs (fun q => Cfg.toPCfg (Val := Val) (cfgs q)) defs₀
local notation "𝕍" => Variants.lift 𝒱₀

omit [Fintype P] [DecidableEq P] [∀ e, Nonempty (Val e)] in
/-- THE LINES AFTER THE REGION when input windows share an array: from the region's exit — the boundary, the windows'
    arrays at `F` each at its share, the bypassing buffers at `Wv` — the lines run within window `w₀`'s array (held at
    the full share: `hshare₀`; at `Wv` too: `hW₀`) and the bypassing buffers (`hsub`), not writing that array
    (`hkeep`), and hand back the arrays as they were and the bypassing buffers at the lines' result. -/
theorem tail_lines (c : Dev nD) (w₀ : Fin (cfgs p).W) (hshare₀ : (dats p c).share w₀ = fullShare)
    (harr₀ : ((cfgs p).spec w₀).arr.IsWhole)
    (F : (w : Fin (cfgs p).W) → Buf Val (((cfgs p).spec w).arr.view.loc (c.tc : Thread nD τ)))
    (Wv : Valuation τ sig Val) (hW₀ : Wv (Proc.devRef .tc (arrRef (cfgs p).spec w₀)) = F w₀)
    (opss : List (List (HloOp τ sig Val)))
    (hsub : ∀ ops ∈ opss, ∀ op ∈ ops, op.bufs ⊆ tailSet sig (cfgs p).spec w₀)
    (hfresh : ∀ ops ∈ opss, ∀ op ∈ ops, op.fresh = ∅)
    (hkeep : ∀ ops ∈ opss, ∀ op ∈ ops, Proc.devRef .tc (arrRef (cfgs p).spec w₀) ∉ op.writes)
    (Q' : PUnit → sProp 𝕄) :
    iprop((iprop((dats p c).arrays F ∗ unscopedRest (cfgs p).spec c (fun b => StableHlo.after opss.flatten Wv (Proc.devRef .tc b))) -∗ Q' ⟨⟩)
        ∗ boundary (c.tc : Thread nD τ) ∗ (dats p c).arrays F ∗ unscopedRest (cfgs p).spec c (fun b => Wv (Proc.devRef .tc b)))
      ⊢ wp frame (wpE 𝔻 𝕍 (c.tc : Thread nD τ) none) Set.univ (chain (opss.map StableHlo.seq)) Q' := by
  classical
  -- window `w₀`'s array, whole at the full share, out of the windows' arrays
  have hA : (dats p c).arrays F
      = iprop((((c.tc : Thread nD τ).loc (arrRef (cfgs p).spec w₀)) ↦{fullShare} F w₀)
          ∗ bigSep (Finset.univ.erase w₀) fun w : Fin (cfgs p).W =>
              ((cfgs p).win w).arr.view.loc (c.tc : Thread nD τ) ↦[((cfgs p).win w).arr.view.set]{(dats p c).share w} F w) := by
    unfold Dat.arrays
    rw [bigSep_erase (Finset.mem_univ w₀)]
    congr 1
    rw [harr₀.set_eq_univ, hshare₀]
  have hkeep' : StableHlo.after opss.flatten Wv (Proc.devRef .tc (arrRef (cfgs p).spec w₀)) = F w₀ := by
    rw [StableHlo.after_of_forall_not_mem _ _ fun op hop => ?_, hW₀]
    obtain ⟨ops, hops, hop⟩ := List.mem_flatten.mp hop
    exact hkeep ops hops op hop
  rw [hA, ← List.append_nil (opss.map StableHlo.seq)]
  iintro ⟨Hk, Hb, ⟨H0, Hothers⟩, Hrest⟩
  iapply (wp_seqs_then (fun q => Cfg.toPCfg (Val := Val) (cfgs q)) defs₀ 𝒱₀ c (tailSet sig (cfgs p).spec w₀) [] opss hsub hfresh Wv) $$ [Hb H0 Hrest]
  · rw [held_tailSet, hW₀]
    isplitl [Hb]; · iexact Hb
    isplitl [H0]; · iexact H0
    iexact Hrest
  iintro Hb
  rw [chain_nil, wp_pure, held_tailSet, hkeep']
  imodintro
  iapply Hk
  icases Hb with ⟨-, H0, Hr⟩
  isplitl [H0 Hothers]
  · isplitl [H0]; · iexact H0
    iexact Hothers
  iexact Hr

variable (hinj : Function.Injective (cellOf (nD := nD) (τ := τ) cfgs)) (hw : WinFacts₀ (cfgs p).spec)

include hinj hw in
/-- THE FRAME RUN when input windows share an array and @main continues after the region with the host lines `opss`
    (`hmain`).  `hsplit` deals the buffers behind the windows' arrays, each whole at the full share at the region-entry
    contents `V`, into the proof data's arrays at entry; the body's invariant is the scoped rest (`hΦ`); the lines touch
    window `w₀`'s array — an output's, held at the full share — and the bypassing buffers only (`hsub`), not writing the
    array (`hkeep`).  `Wv c` is the buffers' contents at the region's exit where the lines look: window `w₀`'s array at
    its final contents (`hW₀`), a bypassing buffer at its entry contents (`hWr`).  Every window's array ends at
    `Dat.arrAt w N`, every bypassing buffer at the lines' result from `Wv c`. -/
theorem θ_run_frame_shared_tail
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (opss : List (List (HloOp τ sig Val)))
    (hmain : HMainK (Ix := Unit) (Name := ℕ) (U := UR sig nD τ) (Lvl := ℕ) cfgs p defs₀ 𝒱₀ m main V
      (fun _ => chain (opss.map StableHlo.seq)))
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c)
    (w₀ : Fin (cfgs p).W) (hshare₀ : ∀ c, (dats p c).share w₀ = fullShare)
    (Wv : Dev nD → Valuation τ sig Val)
    (hW₀ : ∀ c, Wv c (Proc.devRef .tc (arrRef (cfgs p).spec w₀)) = (dats p c).arrAt w₀ (cfgs p).N)
    (hWr : ∀ c, ∀ b ∈ restRefs sig (cfgs p).spec, Wv c (Proc.devRef .tc b) = V c b)
    (hsub : ∀ ops ∈ opss, ∀ op ∈ ops, op.bufs ⊆ tailSet sig (cfgs p).spec w₀)
    (hfresh : ∀ ops ∈ opss, ∀ op ∈ ops, op.fresh = ∅)
    (hkeep : ∀ ops ∈ opss, ∀ op ∈ ops, Proc.devRef .tc (arrRef (cfgs p).spec w₀) ∉ op.writes) :
    θ_run 𝔻 (onTc main) (s₀ m g)
      (fun r => ∀ c : Dev nD, (∀ w, r.2.mem (((cfgs p).spec w).arr.view.loc (c.tc : Thread nD τ)) = (dats p c).arrAt w (cfgs p).N)
        ∧ ∀ b ∈ restRefs sig (cfgs p).spec, r.2.mem ((c.tc : Thread nD τ).loc b) = StableHlo.after opss.flatten (Wv c) (Proc.devRef .tc b)) := by
  classical
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := V) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (V c))
    (Z' := fun c => unscopedRest (Ix := Unit) (Name := ℕ) (U := UR sig nD τ) (Lvl := ℕ) (cfgs p).spec c
      (fun b => StableHlo.after opss.flatten (Wv c) (Proc.devRef .tc b)))
    (hX := fun c => by
      rw [unscopedRestP_none]
      iintro H
      isplitr; · iempintro
      iexact H)
    (hin := fun c => by
      rw [hΦ]
      iintro ⟨-, -, H⟩
      iexact H)
    (hout := fun c => by
      rw [hΦ]
      iintro H
      isplitr; · iempintro
      iexact H)
    (htail := fun c Q' => by
      have hZ : unscopedRest (Ix := Unit) (Name := ℕ) (U := UR sig nD τ) (Lvl := ℕ) (cfgs p).spec c (V c)
          = unscopedRest (Ix := Unit) (Name := ℕ) (U := UR sig nD τ) (Lvl := ℕ) (cfgs p).spec c (fun b => Wv c (Proc.devRef .tc b)) := by
        unfold unscopedRest
        exact bigSep_congr fun b hb => by dsimp only; rw [hWr c b hb]
      rw [hZ]
      exact tail_lines cfgs dats p defs₀ 𝒱₀ c w₀ (hshare₀ c) (harr w₀) (fun w => (dats p c).arrAt w (cfgs p).N) (Wv c) (hW₀ c)
        opss hsub hfresh hkeep Q')
    (QY := fun c s => ∀ b ∈ restRefs sig (cfgs p).spec, s.mem ((c.tc : Thread nD τ).loc b) = StableHlo.after opss.flatten (Wv c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (Wv c) (Proc.devRef .tc b)) s')
      isplitl [HU] <;> iassumption)
    (hQ := fun s h c => ⟨(h c).1, (h c).2.2⟩)

end SharedArrayFrameTail

end
-- ==== Proof.KernelFrame.lean ====
/-
  The frame run of the program, and what its result buffer holds.

  @main reshapes the two bias vectors into rows, runs the kernel over ONE grid point, then sums the kernel's
  8-row output block down its rows, adds the output bias and reshapes the sums into a column.  The kernel's four
  row-tile windows all read the batch array, so that array's share is dealt in quarters among them when the region
  is entered; the lines after the region touch only the kernel's output array and buffers no window stages.
-/
import proofs.«114293_g33157147525407_cont_8to1_b_505_27_alg».proof.Proof.KernelBody
import proofs.«114293_g33157147525407_cont_8to1_b_505_27_alg».proof.Proof.LibSharedFrameTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the two reshapes of the bias vectors. -/
abbrev V0 (c : Dev nD) : Valuation τ sig (Elt F) := StableHlo.after (List.flatten [hostOps0 (F := F)]) (fun b => m (c, b))
/-- The same, read at the TensorCore's references. -/
abbrev V (c : Dev nD) (b : Ref sig .tc) : Buf (Elt F) ((c : Thread nD τ).loc b) := V0 m c b

/-- @main is the two reshapes, the region, and the six lines after it. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1 (F := F)].map StableHlo.seq)) :=
  Pipeline.hmain_around cfgs 0 defs₀ 𝒱₀ m main [hostOps0] [hostOps1] hostOps0_sub ⟨rfl, rfl⟩ fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose array
    is the region-entry contents and whose body leaves the block in place (the window is uncut and never idle): one
    statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body each input's
    buffer at its block and the output's at `outBlock` of the input blocks; the invariant the core's scoped buffers that
    are no staging buffer (there are none); nothing owed; the batch array's share dealt in quarters among the four
    windows that read it, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t)
        (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t
    = outBlock (iblk m c 0 t) (iblk m c 1 t) (iblk m c 2 t) (iblk m c 3 t) (iblk m c 4 t) (iblk m c 5 t) (iblk m c 6 t)
        (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' staging buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The launch: the batch array's share dealt among the four windows that read it, and the frame run of @main.
-/
import proofs.«114293_g33157147525407_cont_8to1_b_505_27_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The seven buffers behind the ten windows' arrays, each whole at the full share at the region-entry contents, make
    the proof data's arrays at entry: the batch array, read through windows 0 to 3, is split in halves and each half
    in halves again, one quarter per window; every other array goes to its one window whole. -/
theorem hsplit (c : Dev nD) :
    (Pipeline.arrBufs spec0 c (V m c) : sProp 𝕄) ⊢ (dats m 0 c).arrays ((dats m 0 c).arrAt · 0) := by
  have e0 : (((cfg0.win 0).arr.view.loc (c.tc : Thread nD τ) ↦[(cfg0.win 0).arr.view.set]{(dats m 0 c).share 0} (dats m 0 c).arrAt 0 0) : sProp 𝕄)
      = (((c.tc : Thread nD τ).loc main_arg0) ↦{fullShare.left.left} V m c main_arg0) := by rw [(arr_whole0 0).set_eq_univ]; rfl
  have e1 : (((cfg0.win 1).arr.view.loc (c.tc : Thread nD τ) ↦[(cfg0.win 1).arr.view.set]{(dats m 0 c).share 1} (dats m 0 c).arrAt 1 0) : sProp 𝕄)
      = (((c.tc : Thread nD τ).loc main_arg0) ↦{fullShare.left.right} V m c main_arg0) := by rw [(arr_whole0 1).set_eq_univ]; rfl
  have e2 : (((cfg0.win 2).arr.view.loc (c.tc : Thread nD τ) ↦[(cfg0.win 2).arr.view.set]{(dats m 0 c).share 2} (dats m 0 c).arrAt 2 0) : sProp 𝕄)
      = (((c.tc : Thread nD τ).loc main_arg0) ↦{fullShare.right.left} V m c main_arg0) := by rw [(arr_whole0 2).set_eq_univ]; rfl
  have e3 : (((cfg0.win 3).arr.view.loc (c.tc : Thread nD τ) ↦[(cfg0.win 3).arr.view.set]{(dats m 0 c).share 3} (dats m 0 c).arrAt 3 0) : sProp 𝕄)
      = (((c.tc : Thread nD τ).loc main_arg0) ↦{fullShare.right.right} V m c main_arg0) := by rw [(arr_whole0 3).set_eq_univ]; rfl
  have e4 : (((cfg0.win 4).arr.view.loc (c.tc : Thread nD τ) ↦[(cfg0.win 4).arr.view.set]{(dats m 0 c).share 4} (dats m 0 c).arrAt 4 0) : sProp 𝕄)
      = (((c.tc : Thread nD τ).loc main_arg1) ↦{fullShare} V m c main_arg1) := by rw [(arr_whole0 4).set_eq_univ]; rfl
  have e5 : (((cfg0.win 5).arr.view.loc (c.tc : Thread nD τ) ↦[(cfg0.win 5).arr.view.set]{(dats m 0 c).share 5} (dats m 0 c).arrAt 5 0) : sProp 𝕄)
      = (((c.tc : Thread nD τ).loc main_v0) ↦{fullShare} V m c main_v0) := by rw [(arr_whole0 5).set_eq_univ]; rfl
  have e6 : (((cfg0.win 6).arr.view.loc (c.tc : Thread nD τ) ↦[(cfg0.win 6).arr.view.set]{(dats m 0 c).share 6} (dats m 0 c).arrAt 6 0) : sProp 𝕄)
      = (((c.tc : Thread nD τ).loc main_arg3) ↦{fullShare} V m c main_arg3) := by rw [(arr_whole0 6).set_eq_univ]; rfl
  have e7 : (((cfg0.win 7).arr.view.loc (c.tc : Thread nD τ) ↦[(cfg0.win 7).arr.view.set]{(dats m 0 c).share 7} (dats m 0 c).arrAt 7 0) : sProp 𝕄)
      = (((c.tc : Thread nD τ).loc main_v1) ↦{fullShare} V m c main_v1) := by rw [(arr_whole0 7).set_eq_univ]; rfl
  have e8 : (((cfg0.win 8).arr.view.loc (c.tc : Thread nD τ) ↦[(cfg0.win 8).arr.view.set]{(dats m 0 c).share 8} (dats m 0 c).arrAt 8 0) : sProp 𝕄)
      = (((c.tc : Thread nD τ).loc main_arg5) ↦{fullShare} V m c main_arg5) := by rw [(arr_whole0 8).set_eq_univ]; rfl
  have e9 : (((cfg0.win 9).arr.view.loc (c.tc : Thread nD τ) ↦[(cfg0.win 9).arr.view.set]{(dats m 0 c).share 9} (dats m 0 c).arrAt 9 0) : sProp 𝕄)
      = (((c.tc : Thread nD τ).loc main_v2) ↦{fullShare} V m c main_v2) := by rw [(arr_whole0 9).set_eq_univ]; rfl
  have hL : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0) ∗ (((c.tc : Thread nD τ).loc main_arg3) ↦{fullShare} V m c main_arg3)
          ∗ (((c.tc : Thread nD τ).loc main_v1) ↦{fullShare} V m c main_v1) ∗ (((c.tc : Thread nD τ).loc main_arg5) ↦{fullShare} V m c main_arg5)
          ∗ (((c.tc : Thread nD τ).loc main_v2) ↦{fullShare} V m c main_v2)) := by
    unfold Pipeline.arrBufs
    exact bigSep_eq_bigSepL_of_eq [main_arg0, main_arg1, main_v0, main_arg3, main_v1, main_arg5, main_v2] (by decide) (by decide) _
  unfold Dat.arrays
  rw [hL, bigSep_W0, e0, e1, e2, e3, e4, e5, e6, e7, e8, e9]
  iintro ⟨Ha0, Ha1, Hv0, Ha3, Hv1, Ha5, Hv2⟩
  ihave H := (pointsTo_share (PosShare.mem_left_op_right fullShare)).1 $$ Ha0
  icases H with ⟨HL, HR⟩
  ihave H := (pointsTo_share (PosShare.mem_left_op_right fullShare.left)).1 $$ HL
  icases H with ⟨HLL, HLR⟩
  ihave H := (pointsTo_share (PosShare.mem_left_op_right fullShare.right)).1 $$ HR
  icases H with ⟨HRL, HRR⟩
  isplitl [HLL]; · iexact HLL
  isplitl [HLR]; · iexact HLR
  isplitl [HRL]; · iexact HRL
  isplitl [HRR]; · iexact HRR
  isplitl [Ha1]; · iexact Ha1
  isplitl [Hv0]; · iexact Hv0
  isplitl [Ha3]; · iexact Ha3
  isplitl [Hv1]; · iexact Hv1
  isplitl [Ha5]; · iexact Ha5
  iexact Hv2

/-! ## The buffers at the region's exit, and the run -/

/-- Core `c`'s buffers where the lines after the region look: the kernel's output array at its final contents, every
    other buffer as the region found it. -/
def Wv (c : Dev nD) : Valuation τ sig (Elt F) :=
  Function.update (V0 m c) (Proc.devRef .tc main_v2) ((dats m 0 c).arrAt 9 cfg0.N)

theorem Wv_out (c : Dev nD) : Wv m c (Proc.devRef .tc main_v2) = (dats m 0 c).arrAt 9 cfg0.N := by
  unfold Wv; exact Function.update_self _ _ _

theorem Wv_of_ne (c : Dev nD) (b : Ref sig .tc) (hb : b ≠ main_v2) : Wv m c (Proc.devRef .tc b) = V m c b := by
  unfold Wv
  exact Function.update_of_ne (fun e => hb (Proc.devRef_injective _ e)) _ _

/-- The six lines after the region touch the kernel's output array and buffers no window stages: the zero constant, the
    row sums, the output bias and its scalar and broadcast forms, the biased sums and the result column. -/
theorem tail_sub : ∀ ops ∈ [hostOps1 (F := F)], ∀ op ∈ ops, op.bufs ⊆ SharedArrayFrameTail.tailSet sig spec0 9 := by
  have hv2 : Proc.devRef (τ := τ) .tc main_v2 ∈ SharedArrayFrameTail.tailSet sig spec0 9 := Finset.mem_insert_self _ _
  have hr : ∀ b ∈ Pipeline.restRefs sig spec0, Proc.devRef (τ := τ) .tc b ∈ SharedArrayFrameTail.tailSet sig spec0 9 :=
    fun b hb => Finset.mem_insert_of_mem (Finset.mem_map_of_mem _ hb)
  have hcst := hr main_cst (Pipeline.mem_restRefs_of _ rfl (by decide))
  have hv3 := hr main_v3 (Pipeline.mem_restRefs_of _ rfl (by decide))
  have ha6 := hr main_arg6 (Pipeline.mem_restRefs_of _ rfl (by decide))
  have hv4 := hr main_v4 (Pipeline.mem_restRefs_of _ rfl (by decide))
  have hv5 := hr main_v5 (Pipeline.mem_restRefs_of _ rfl (by decide))
  have hv6 := hr main_v6 (Pipeline.mem_restRefs_of _ rfl (by decide))
  have hv7 := hr main_v7 (Pipeline.mem_restRefs_of _ rfl (by decide))
  intro ops hops op hop
  rw [List.mem_singleton] at hops; subst hops
  simp only [List.mem_cons, List.mem_nil_iff, or_false] at hop
  rcases hop with rfl | rfl | rfl | rfl | rfl | rfl
  · exact Finset.singleton_subset_iff.mpr hcst
  · exact Finset.insert_subset_iff.mpr ⟨hv2, Finset.insert_subset_iff.mpr ⟨hcst, Finset.singleton_subset_iff.mpr hv3⟩⟩
  · exact Finset.insert_subset_iff.mpr ⟨ha6, Finset.singleton_subset_iff.mpr hv4⟩
  · exact Finset.insert_subset_iff.mpr ⟨hv4, Finset.singleton_subset_iff.mpr hv5⟩
  · exact Finset.insert_subset_iff.mpr ⟨hv3, Finset.insert_subset_iff.mpr ⟨hv5, Finset.singleton_subset_iff.mpr hv6⟩⟩
  · exact Finset.insert_subset_iff.mpr ⟨hv6, Finset.singleton_subset_iff.mpr hv7⟩

theorem tail_fresh : ∀ ops ∈ [hostOps1 (F := F)], ∀ op ∈ ops, op.fresh = ∅ := by
  intro ops hops op hop
  rw [List.mem_singleton] at hops; subst hops
  simp only [List.mem_cons, List.mem_nil_iff, or_false] at hop
  rcases hop with rfl | rfl | rfl | rfl | rfl | rfl <;> rfl

/-- None of them writes the kernel's output array: each writes its own result buffer. -/
theorem tail_keep : ∀ ops ∈ [hostOps1 (F := F)], ∀ op ∈ ops, Proc.devRef .tc (Pipeline.arrRef spec0 9) ∉ op.writes := by
  have h : ∀ y : Ref sig .tc, y ≠ main_v2 → Proc.devRef (τ := τ) .tc (Pipeline.arrRef spec0 9) ∉ ({Proc.devRef .tc y} : Finset (DevRef τ sig)) :=
    fun y hy hm => hy (Proc.devRef_injective _ (Finset.mem_singleton.mp hm)).symm
  intro ops hops op hop
  rw [List.mem_singleton] at hops; subst hops
  simp only [List.mem_cons, List.mem_nil_iff, or_false] at hop
  rcases hop with rfl | rfl | rfl | rfl | rfl | rfl
  · exact h main_cst (by decide)
  · exact h main_v3 (by decide)
  · exact h main_v4 (by decide)
  · exact h main_v5 (by decide)
  · exact h main_v6 (by decide)
  · exact h main_v7 (by decide)

set_option backward.isDefEq.respectTransparency.types false in
/-- Every weakly fair execution of @main terminates; every window's array ends at what the library computes from the
    proof data, and every buffer no window stages at the six lines' result from the exit contents. -/
theorem run_main : θ_run defs (onTc (τ := τ) (main (F := F))) (s₀ m ρ)
    (fun r => ∀ c : Dev nD, (∀ w, r.2.mem (((cfgs 0).spec w).arr.view.loc (c.tc : Thread nD τ)) = (dats m 0 c).arrAt w (cfgs 0).N)
      ∧ ∀ b ∈ Pipeline.restRefs sig (cfgs 0).spec, r.2.mem ((c.tc : Thread nD τ).loc b)
          = StableHlo.after (List.flatten [hostOps1 (F := F)]) (Wv m c) (Proc.devRef .tc b)) :=
  SharedArrayFrameTail.θ_run_frame_shared_tail cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (opss := [hostOps1]) (hmain := hmain m Variants.none) (hsplit := hsplit m)
    (hΦ := fun _ _ => rfl) (w₀ := 9) (hshare₀ := fun _ => rfl) (Wv := Wv m) (hW₀ := Wv_out m)
    (hWr := fun c b hb => Wv_of_ne m c b fun e => (Finset.mem_sdiff.mp hb).2 (Finset.mem_image.mpr ⟨9, Finset.mem_univ _, e.symm⟩))
    (hsub := tail_sub) (hfresh := tail_fresh) (hkeep := tail_keep)

end Cert.Kernel.Hand

end
-- ==== Proof.KernelKept.lean ====
/-
  What the run leaves: every argument array as it was launched, and the result buffer at the six lines after the
  region applied to the kernel's output block and the output bias.
-/
import proofs.«114293_g33157147525407_cont_8to1_b_505_27_alg».proof.Proof.KernelRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic Idealize.ShloMosaic.StableHlo
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## The region-entry contents: the two reshapes write only their own results -/

theorem V_arg0 (c : Dev nD) : V m c main_arg0 = m ((c.tc : Thread nD τ).loc main_arg0) := by
  show StableHlo.after (hostOps0 (F := F)) (fun b => m (c, b)) (Proc.devRef .tc main_arg0) = _
  after_results <;> rfl
theorem V_arg1 (c : Dev nD) : V m c main_arg1 = m ((c.tc : Thread nD τ).loc main_arg1) := by
  show StableHlo.after (hostOps0 (F := F)) (fun b => m (c, b)) (Proc.devRef .tc main_arg1) = _
  after_results <;> rfl
theorem V_arg2 (c : Dev nD) : V m c main_arg2 = m ((c.tc : Thread nD τ).loc main_arg2) := by
  show StableHlo.after (hostOps0 (F := F)) (fun b => m (c, b)) (Proc.devRef .tc main_arg2) = _
  after_results <;> rfl
theorem V_arg3 (c : Dev nD) : V m c main_arg3 = m ((c.tc : Thread nD τ).loc main_arg3) := by
  show StableHlo.after (hostOps0 (F := F)) (fun b => m (c, b)) (Proc.devRef .tc main_arg3) = _
  after_results <;> rfl
theorem V_arg4 (c : Dev nD) : V m c main_arg4 = m ((c.tc : Thread nD τ).loc main_arg4) := by
  show StableHlo.after (hostOps0 (F := F)) (fun b => m (c, b)) (Proc.devRef .tc main_arg4) = _
  after_results <;> rfl
theorem V_arg5 (c : Dev nD) : V m c main_arg5 = m ((c.tc : Thread nD τ).loc main_arg5) := by
  show StableHlo.after (hostOps0 (F := F)) (fun b => m (c, b)) (Proc.devRef .tc main_arg5) = _
  after_results <;> rfl
theorem V_arg6 (c : Dev nD) : V m c main_arg6 = m ((c.tc : Thread nD τ).loc main_arg6) := by
  show StableHlo.after (hostOps0 (F := F)) (fun b => m (c, b)) (Proc.devRef .tc main_arg6) = _
  after_results <;> rfl

/-- The first bias vector as a row. -/
theorem V_v0 (c : Dev nD) : V m c main_v0 = shapeCast S1x64 (m ((c.tc : Thread nD τ).loc main_arg2)) shapeCasts_S64_S1x64 := by
  show StableHlo.after (hostOps0 (F := F)) (fun b => m (c, b)) (Proc.devRef .tc main_v0) = _
  after_results
  rfl
/-- The second bias vector as a row. -/
theorem V_v1 (c : Dev nD) : V m c main_v1 = shapeCast S1x64 (m ((c.tc : Thread nD τ).loc main_arg4)) shapeCasts_S64_S1x64 := by
  show StableHlo.after (hostOps0 (F := F)) (fun b => m (c, b)) (Proc.devRef .tc main_v1) = _
  after_results
  rfl

/-! ## The six lines after the region -/

/-- The six lines as one function of the kernel's output block `o` and the output bias `b3`: the block summed down its
    eight rows from zero, plus the bias (a one-element vector made a scalar and repeated), as a column. -/
def tailOf (o : FVec F S8x16384 .f32) (b3 : FVec F S1 .f32) : FVec F S16384x1 .f32 :=
  shapeCast S16384x1
    (addf (Host.reduceAdd o (constant S_ .f32 0x00000000#32) reducesTo_S8x16384_S16384_d0 h_S_)
      (broadcastInDim S16384 ![] bcast_S_S16384 (shapeCast S_ b3 shapeCasts_S1_S_)))
    shapeCasts_S16384_S16384x1

theorem tail_v7 (c : Dev nD) :
    StableHlo.after (List.flatten [hostOps1 (F := F)]) (Wv m c) (Proc.devRef .tc main_v7)
      = tailOf (Wv m c (Proc.devRef .tc main_v2)) (Wv m c (Proc.devRef .tc main_arg6)) := by
  show StableHlo.after (hostOps1 (F := F)) (Wv m c) (Proc.devRef .tc main_v7) = _
  after_results
  rfl

/-- The result buffer after the run. -/
theorem result_eq (c : Dev nD) :
    StableHlo.after (List.flatten [hostOps1 (F := F)]) (Wv m c) (Proc.devRef .tc main_v7)
      = tailOf ((dats m 0 c).arrAt 9 cfg0.N) (m ((c.tc : Thread nD τ).loc main_arg6)) := by
  rw [tail_v7, Wv_out, Wv_of_ne m c main_arg6 (by decide), V_arg6]

theorem tail_arg2 (c : Dev nD) :
    StableHlo.after (List.flatten [hostOps1 (F := F)]) (Wv m c) (Proc.devRef .tc main_arg2) = m ((c.tc : Thread nD τ).loc main_arg2) := by
  have h : StableHlo.after (List.flatten [hostOps1 (F := F)]) (Wv m c) (Proc.devRef .tc main_arg2) = Wv m c (Proc.devRef .tc main_arg2) := by
    show StableHlo.after (hostOps1 (F := F)) (Wv m c) (Proc.devRef .tc main_arg2) = _
    after_results <;> rfl
  rw [h, Wv_of_ne m c main_arg2 (by decide), V_arg2]
theorem tail_arg4 (c : Dev nD) :
    StableHlo.after (List.flatten [hostOps1 (F := F)]) (Wv m c) (Proc.devRef .tc main_arg4) = m ((c.tc : Thread nD τ).loc main_arg4) := by
  have h : StableHlo.after (List.flatten [hostOps1 (F := F)]) (Wv m c) (Proc.devRef .tc main_arg4) = Wv m c (Proc.devRef .tc main_arg4) := by
    show StableHlo.after (hostOps1 (F := F)) (Wv m c) (Proc.devRef .tc main_arg4) = _
    after_results <;> rfl
  rw [h, Wv_of_ne m c main_arg4 (by decide), V_arg4]
theorem tail_arg6 (c : Dev nD) :
    StableHlo.after (List.flatten [hostOps1 (F := F)]) (Wv m c) (Proc.devRef .tc main_arg6) = m ((c.tc : Thread nD τ).loc main_arg6) := by
  have h : StableHlo.after (List.flatten [hostOps1 (F := F)]) (Wv m c) (Proc.devRef .tc main_arg6) = Wv m c (Proc.devRef .tc main_arg6) := by
    show StableHlo.after (hostOps1 (F := F)) (Wv m c) (Proc.devRef .tc main_arg6) = _
    after_results <;> rfl
  rw [h, Wv_of_ne m c main_arg6 (by decide), V_arg6]

/-! ## The run, read -/

/-- Every weakly fair execution of @main terminates with the result buffer at `tailOf` of the kernel's final output array
    and the output bias, and every argument array as launched. -/
theorem run_read : θ_run defs (onTc (τ := τ) (main (F := F))) ⟨m, fun _ => 0, ρ⟩ (fun r => ∀ c : Dev nD,
      r.2.mem ((c.tc : Thread nD τ).loc main_v7) = tailOf ((dats m 0 c).arrAt 9 cfg0.N) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v7 (Pipeline.mem_restRefs_of _ rfl (by decide))).trans (result_eq m c),
      ((h c).1 0).trans (((dats m 0 c).arrAt_in 0 rfl _).trans ((A_eq m c 0).trans (V_arg0 m c))),
      ((h c).1 4).trans (((dats m 0 c).arrAt_in 4 rfl _).trans ((A_eq m c 4).trans (V_arg1 m c))),
      ((h c).2 main_arg2 (Pipeline.mem_restRefs_of _ rfl (by decide))).trans (tail_arg2 m c),
      ((h c).1 6).trans (((dats m 0 c).arrAt_in 6 rfl _).trans ((A_eq m c 6).trans (V_arg3 m c))),
      ((h c).2 main_arg4 (Pipeline.mem_restRefs_of _ rfl (by decide))).trans (tail_arg4 m c),
      ((h c).1 8).trans (((dats m 0 c).arrAt_in 8 rfl _).trans ((A_eq m c 8).trans (V_arg5 m c))),
      ((h c).2 main_arg6 (Pipeline.mem_restRefs_of _ rfl (by decide))).trans (tail_arg6 m c)⟩)
    (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_read m ρ)

end Cert.Kernel.Hand

end
-- ==== Proof.KernelIdealBody.lean ====
/-
  The kernel body's triple.

  The body reads nine staged blocks — four row tiles of the batch (4096 rows of 128 features each), the two weight
  matrices of the hidden layers, their two bias rows and the output unit's weight row — and fills its output block,
  8 rows by 16384 columns, in four stores of 4096 columns each, the s-th store being the replicated output head of
  the s-th row tile.  What the output buffer holds afterwards is therefore the canonical contents of four pieces
  that tile it (`outBlock`), each piece a pure function of the loaded blocks through the skeleton's payloads.
  The body also loads each quarter of the output buffer before storing into it; nothing depends on what it reads.
-/
import proofs.«114293_g33157147525407_cont_8to1_b_505_27_alg».proof.Proof.Gen.KernelIdeal.Launch
import proofs.«114293_g33157147525407_cont_8to1_b_505_27_alg».proof.Proof.Gen.KernelIdeal.Skeleton
import proofs.«114293_g33157147525407_cont_8to1_b_505_27_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A row tile of the batch, whole. -/
abbrev rX : Rect S4096x128 := Rect.unit (s := S4096x128) ![0, 0] S4096x128.size inb_S4096x128_S4096x128_0_0
/-- The first layer's weights, whole. -/
abbrev rW1 : Rect S64x128 := Rect.unit (s := S64x128) ![0, 0] S64x128.size inb_S64x128_S64x128_0_0
/-- The second layer's weights, whole. -/
abbrev rW2 : Rect S64x64 := Rect.unit (s := S64x64) ![0, 0] S64x64.size inb_S64x64_S64x64_0_0
/-- A row of 64 (a bias row, the output unit's weights), whole. -/
abbrev rRow : Rect S1x64 := Rect.unit (s := S1x64) ![0, 0] S1x64.size inb_S1x64_S1x64_0_0
/-- The four quarters of the output block: columns 0–4095, 4096–8191, 8192–12287, 12288–16383. -/
abbrev rO0 : Rect S8x16384 := Rect.unit (s := S8x16384) ![0, 0] S8x4096.size inb_S8x16384_S8x4096_0_0
abbrev rO1 : Rect S8x16384 := Rect.unit (s := S8x16384) ![0, 4096] S8x4096.size inb_S8x16384_S8x4096_0_4096
abbrev rO2 : Rect S8x16384 := Rect.unit (s := S8x16384) ![0, 8192] S8x4096.size inb_S8x16384_S8x4096_0_8192
abbrev rO3 : Rect S8x16384 := Rect.unit (s := S8x16384) ![0, 12288] S8x4096.size inb_S8x16384_S8x4096_0_12288

/-! ## What the body leaves in the output block -/

/-- The quarter stored first: the head of row tile 0. -/
def piece0 (x0 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay7 (View.ld w1 rW1) (View.ld w2 rW2) (View.ld b1 rRow) (View.ld b2 rRow) (View.ld w3 rRow) (View.ld x0 rX)
/-- The second quarter: the head of row tile 1. -/
def piece1 (x1 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay9 (k0_pay3 (View.ld w2 rW2)) (k0_pay4 (View.ld b1 rRow)) (k0_pay5 (View.ld b2 rRow)) (k0_pay6 (View.ld w3 rRow))
    (k0_pay8 (View.ld w1 rW1) (View.ld x1 rX))
/-- The third quarter: the head of row tile 2. -/
def piece2 (x2 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay10 (k0_pay2 (View.ld w1 rW1)) (k0_pay3 (View.ld w2 rW2)) (k0_pay4 (View.ld b1 rRow)) (k0_pay5 (View.ld b2 rRow))
    (k0_pay6 (View.ld w3 rRow)) (View.ld x2 rX)
/-- The last quarter: the head of row tile 3. -/
def piece3 (x3 : Vec F S4096x128 .f32) (w1 : Vec F S64x128 .f32) (b1 : Vec F S1x64 .f32) (w2 : Vec F S64x64 .f32) (b2 : Vec F S1x64 .f32)
    (w3 : Vec F S1x64 .f32) : FVec F S8x4096 .f32 :=
  k0_pay1 (k0_pay5 (View.ld b2 rRow)) (k0_pay6 (View.ld w3 rRow))
    (k0_pay11 (k0_pay2 (View.ld w1 rW1)) (k0_pay3 (View.ld w2 rW2)) (k0_pay4 (View.ld b1 rRow)) (View.ld x3 rX))

/-- The output block after the body, from the nine input blocks: its four stores as pieces, the last store first. -/
def outBlock (x0 x1 x2 x3 : Vec F S4096x128 .f32) (w1 : Vec F S64x128 .f32) (b1 : Vec F S1x64 .f32) (w2 : Vec F S64x64 .f32)
    (b2 : Vec F S1x64 .f32) (w3 : Vec F S1x64 .f32) : Vec F S8x16384 .f32 :=
  View.canon [⟨rO3, piece3 x3 w1 b1 w2 b2 w3⟩, ⟨rO2, piece2 x2 w1 b1 w2 b2 w3⟩, ⟨rO1, piece1 x1 w1 b1 w2 b2 w3⟩,
    ⟨rO0, piece0 x0 w1 b1 w2 b2 w3⟩]

/-- The four quarters tile the block (decided on the rectangles), so they cover it. -/
theorem cover (p3 p2 p1 p0 : Vec F S8x4096 .f32) (y : S8x16384.Idx) :
    ∃ pc ∈ ([⟨rO3, p3⟩, ⟨rO2, p2⟩, ⟨rO1, p1⟩, ⟨rO0, p0⟩] : List (View.Piece (Elt F) S8x16384 .f32)), y ∈ pc.1.set :=
  View.cover_of_tiled [⟨rO3, p3⟩, ⟨rO2, p2⟩, ⟨rO1, p1⟩, ⟨rO0, p0⟩] S8x4096.size (by rfl) y

/-! ## The body's triple -/

set_option maxHeartbeats 4000000 in
/-- The kernel body on whole staging memrefs — the nine inputs' at read contents, the output's at anything — runs to the
    continuation holding the inputs' as they were and the output's at `outBlock` of the inputs'. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S8x16384 .f32) (harg10 : arg10.IsWhole)
    (x0 x1 x2 x3 : Vec F S4096x128 .f32) (w1 : Vec F S64x128 .f32) (b1 : Vec F S1x64 .f32) (w2 : Vec F S64x64 .f32)
    (b2 : Vec F S1x64 .f32) (w3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w1 ∗ owns (c : Thread nD τ) arg6 fullShare b1
        ∗ owns (c : Thread nD τ) arg7 fullShare w2 ∗ owns (c : Thread nD τ) arg8 fullShare b2 ∗ owns (c : Thread nD τ) arg9 fullShare w3
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w1 ∗ owns (c : Thread nD τ) arg6 fullShare b1
            ∗ owns (c : Thread nD τ) arg7 fullShare w2 ∗ owns (c : Thread nD τ) arg8 fullShare b2 ∗ owns (c : Thread nD τ) arg9 fullShare w3
            ∗ owns (c : Thread nD τ) arg10 fullShare (outBlock x0 x1 x2 x3 w1 b1 w2 b2 w3)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover _ _ _ _)

end Cert.KernelIdeal.Hand

end
-- ==== Proof.KernelIdealFrame.lean ====
/-
  The frame run of the program, and what its result buffer holds.

  @main reshapes the two bias vectors into rows, runs the kernel over ONE grid point, then sums the kernel's
  8-row output block down its rows, adds the output bias and reshapes the sums into a column.  The kernel's four
  row-tile windows all read the batch array, so that array's share is dealt in quarters among them when the region
  is entered; the lines after the region touch only the kernel's output array and buffers no window stages.
-/
import proofs.«114293_g33157147525407_cont_8to1_b_505_27_alg».proof.Proof.KernelIdealBody
import proofs.«114293_g33157147525407_cont_8to1_b_505_27_alg».proof.Proof.LibSharedFrameTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the two reshapes of the bias vectors. -/
abbrev V0 (c : Dev nD) : Valuation τ sig (Elt F) := StableHlo.after (List.flatten [hostOps0 (F := F)]) (fun b => m (c, b))
/-- The same, read at the TensorCore's references. -/
abbrev V (c : Dev nD) (b : Ref sig .tc) : Buf (Elt F) ((c : Thread nD τ).loc b) := V0 m c b

/-- @main is the two reshapes, the region, and the six lines after it. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1 (F := F)].map StableHlo.seq)) :=
  Pipeline.hmain_around cfgs 0 defs₀ 𝒱₀ m main [hostOps0] [hostOps1] hostOps0_sub ⟨rfl, rfl⟩ fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose array
    is the region-entry contents and whose body leaves the block in place (the window is uncut and never idle): one
    statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body each input's
    buffer at its block and the output's at `outBlock` of the input blocks; the invariant the core's scoped buffers that
    are no staging buffer (there are none); nothing owed; the batch array's share dealt in quarters among the four
    windows that read it, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t)
        (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t
    = outBlock (iblk m c 0 t) (iblk m c 1 t) (iblk m c 2 t) (iblk m c 3 t) (iblk m c 4 t) (iblk m c 5 t) (iblk m c 6 t)
        (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' staging buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The launch: the batch array's share dealt among the four windows that read it, and the frame run of @main.
-/
import proofs.«114293_g33157147525407_cont_8to1_b_505_27_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The seven buffers behind the ten windows' arrays, each whole at the full share at the region-entry contents, make
    the proof data's arrays at entry: the batch array, read through windows 0 to 3, is split in halves and each half
    in halves again, one quarter per window; every other array goes to its one window whole. -/
theorem hsplit (c : Dev nD) :
    (Pipeline.arrBufs spec0 c (V m c) : sProp 𝕄) ⊢ (dats m 0 c).arrays ((dats m 0 c).arrAt · 0) := by
  have e0 : (((cfg0.win 0).arr.view.loc (c.tc : Thread nD τ) ↦[(cfg0.win 0).arr.view.set]{(dats m 0 c).share 0} (dats m 0 c).arrAt 0 0) : sProp 𝕄)
      = (((c.tc : Thread nD τ).loc main_arg0) ↦{fullShare.left.left} V m c main_arg0) := by rw [(arr_whole0 0).set_eq_univ]; rfl
  have e1 : (((cfg0.win 1).arr.view.loc (c.tc : Thread nD τ) ↦[(cfg0.win 1).arr.view.set]{(dats m 0 c).share 1} (dats m 0 c).arrAt 1 0) : sProp 𝕄)
      = (((c.tc : Thread nD τ).loc main_arg0) ↦{fullShare.left.right} V m c main_arg0) := by rw [(arr_whole0 1).set_eq_univ]; rfl
  have e2 : (((cfg0.win 2).arr.view.loc (c.tc : Thread nD τ) ↦[(cfg0.win 2).arr.view.set]{(dats m 0 c).share 2} (dats m 0 c).arrAt 2 0) : sProp 𝕄)
      = (((c.tc : Thread nD τ).loc main_arg0) ↦{fullShare.right.left} V m c main_arg0) := by rw [(arr_whole0 2).set_eq_univ]; rfl
  have e3 : (((cfg0.win 3).arr.view.loc (c.tc : Thread nD τ) ↦[(cfg0.win 3).arr.view.set]{(dats m 0 c).share 3} (dats m 0 c).arrAt 3 0) : sProp 𝕄)
      = (((c.tc : Thread nD τ).loc main_arg0) ↦{fullShare.right.right} V m c main_arg0) := by rw [(arr_whole0 3).set_eq_univ]; rfl
  have e4 : (((cfg0.win 4).arr.view.loc (c.tc : Thread nD τ) ↦[(cfg0.win 4).arr.view.set]{(dats m 0 c).share 4} (dats m 0 c).arrAt 4 0) : sProp 𝕄)
      = (((c.tc : Thread nD τ).loc main_arg1) ↦{fullShare} V m c main_arg1) := by rw [(arr_whole0 4).set_eq_univ]; rfl
  have e5 : (((cfg0.win 5).arr.view.loc (c.tc : Thread nD τ) ↦[(cfg0.win 5).arr.view.set]{(dats m 0 c).share 5} (dats m 0 c).arrAt 5 0) : sProp 𝕄)
      = (((c.tc : Thread nD τ).loc main_v0) ↦{fullShare} V m c main_v0) := by rw [(arr_whole0 5).set_eq_univ]; rfl
  have e6 : (((cfg0.win 6).arr.view.loc (c.tc : Thread nD τ) ↦[(cfg0.win 6).arr.view.set]{(dats m 0 c).share 6} (dats m 0 c).arrAt 6 0) : sProp 𝕄)
      = (((c.tc : Thread nD τ).loc main_arg3) ↦{fullShare} V m c main_arg3) := by rw [(arr_whole0 6).set_eq_univ]; rfl
  have e7 : (((cfg0.win 7).arr.view.loc (c.tc : Thread nD τ) ↦[(cfg0.win 7).arr.view.set]{(dats m 0 c).share 7} (dats m 0 c).arrAt 7 0) : sProp 𝕄)
      = (((c.tc : Thread nD τ).loc main_v1) ↦{fullShare} V m c main_v1) := by rw [(arr_whole0 7).set_eq_univ]; rfl
  have e8 : (((cfg0.win 8).arr.view.loc (c.tc : Thread nD τ) ↦[(cfg0.win 8).arr.view.set]{(dats m 0 c).share 8} (dats m 0 c).arrAt 8 0) : sProp 𝕄)
      = (((c.tc : Thread nD τ).loc main_arg5) ↦{fullShare} V m c main_arg5) := by rw [(arr_whole0 8).set_eq_univ]; rfl
  have e9 : (((cfg0.win 9).arr.view.loc (c.tc : Thread nD τ) ↦[(cfg0.win 9).arr.view.set]{(dats m 0 c).share 9} (dats m 0 c).arrAt 9 0) : sProp 𝕄)
      = (((c.tc : Thread nD τ).loc main_v2) ↦{fullShare} V m c main_v2) := by rw [(arr_whole0 9).set_eq_univ]; rfl
  have hL : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0) ∗ (((c.tc : Thread nD τ).loc main_arg3) ↦{fullShare} V m c main_arg3)
          ∗ (((c.tc : Thread nD τ).loc main_v1) ↦{fullShare} V m c main_v1) ∗ (((c.tc : Thread nD τ).loc main_arg5) ↦{fullShare} V m c main_arg5)
          ∗ (((c.tc : Thread nD τ).loc main_v2) ↦{fullShare} V m c main_v2)) := by
    unfold Pipeline.arrBufs
    exact bigSep_eq_bigSepL_of_eq [main_arg0, main_arg1, main_v0, main_arg3, main_v1, main_arg5, main_v2] (by decide) (by decide) _
  unfold Dat.arrays
  rw [hL, bigSep_W0, e0, e1, e2, e3, e4, e5, e6, e7, e8, e9]
  iintro ⟨Ha0, Ha1, Hv0, Ha3, Hv1, Ha5, Hv2⟩
  ihave H := (pointsTo_share (PosShare.mem_left_op_right fullShare)).1 $$ Ha0
  icases H with ⟨HL, HR⟩
  ihave H := (pointsTo_share (PosShare.mem_left_op_right fullShare.left)).1 $$ HL
  icases H with ⟨HLL, HLR⟩
  ihave H := (pointsTo_share (PosShare.mem_left_op_right fullShare.right)).1 $$ HR
  icases H with ⟨HRL, HRR⟩
  isplitl [HLL]; · iexact HLL
  isplitl [HLR]; · iexact HLR
  isplitl [HRL]; · iexact HRL
  isplitl [HRR]; · iexact HRR
  isplitl [Ha1]; · iexact Ha1
  isplitl [Hv0]; · iexact Hv0
  isplitl [Ha3]; · iexact Ha3
  isplitl [Hv1]; · iexact Hv1
  isplitl [Ha5]; · iexact Ha5
  iexact Hv2

/-! ## The buffers at the region's exit, and the run -/

/-- Core `c`'s buffers where the lines after the region look: the kernel's output array at its final contents, every
    other buffer as the region found it. -/
def Wv (c : Dev nD) : Valuation τ sig (Elt F) :=
  Function.update (V0 m c) (Proc.devRef .tc main_v2) ((dats m 0 c).arrAt 9 cfg0.N)

theorem Wv_out (c : Dev nD) : Wv m c (Proc.devRef .tc main_v2) = (dats m 0 c).arrAt 9 cfg0.N := by
  unfold Wv; exact Function.update_self _ _ _

theorem Wv_of_ne (c : Dev nD) (b : Ref sig .tc) (hb : b ≠ main_v2) : Wv m c (Proc.devRef .tc b) = V m c b := by
  unfold Wv
  exact Function.update_of_ne (fun e => hb (Proc.devRef_injective _ e)) _ _

/-- The six lines after the region touch the kernel's output array and buffers no window stages: the zero constant, the
    row sums, the output bias and its scalar and broadcast forms, the biased sums and the result column. -/
theorem tail_sub : ∀ ops ∈ [hostOps1 (F := F)], ∀ op ∈ ops, op.bufs ⊆ SharedArrayFrameTail.tailSet sig spec0 9 := by
  have hv2 : Proc.devRef (τ := τ) .tc main_v2 ∈ SharedArrayFrameTail.tailSet sig spec0 9 := Finset.mem_insert_self _ _
  have hr : ∀ b ∈ Pipeline.restRefs sig spec0, Proc.devRef (τ := τ) .tc b ∈ SharedArrayFrameTail.tailSet sig spec0 9 :=
    fun b hb => Finset.mem_insert_of_mem (Finset.mem_map_of_mem _ hb)
  have hcst := hr main_cst (Pipeline.mem_restRefs_of _ rfl (by decide))
  have hv3 := hr main_v3 (Pipeline.mem_restRefs_of _ rfl (by decide))
  have ha6 := hr main_arg6 (Pipeline.mem_restRefs_of _ rfl (by decide))
  have hv4 := hr main_v4 (Pipeline.mem_restRefs_of _ rfl (by decide))
  have hv5 := hr main_v5 (Pipeline.mem_restRefs_of _ rfl (by decide))
  have hv6 := hr main_v6 (Pipeline.mem_restRefs_of _ rfl (by decide))
  have hv7 := hr main_v7 (Pipeline.mem_restRefs_of _ rfl (by decide))
  intro ops hops op hop
  rw [List.mem_singleton] at hops; subst hops
  simp only [List.mem_cons, List.mem_nil_iff, or_false] at hop
  rcases hop with rfl | rfl | rfl | rfl | rfl | rfl
  · exact Finset.singleton_subset_iff.mpr hcst
  · exact Finset.insert_subset_iff.mpr ⟨hv2, Finset.insert_subset_iff.mpr ⟨hcst, Finset.singleton_subset_iff.mpr hv3⟩⟩
  · exact Finset.insert_subset_iff.mpr ⟨ha6, Finset.singleton_subset_iff.mpr hv4⟩
  · exact Finset.insert_subset_iff.mpr ⟨hv4, Finset.singleton_subset_iff.mpr hv5⟩
  · exact Finset.insert_subset_iff.mpr ⟨hv3, Finset.insert_subset_iff.mpr ⟨hv5, Finset.singleton_subset_iff.mpr hv6⟩⟩
  · exact Finset.insert_subset_iff.mpr ⟨hv6, Finset.singleton_subset_iff.mpr hv7⟩

theorem tail_fresh : ∀ ops ∈ [hostOps1 (F := F)], ∀ op ∈ ops, op.fresh = ∅ := by
  intro ops hops op hop
  rw [List.mem_singleton] at hops; subst hops
  simp only [List.mem_cons, List.mem_nil_iff, or_false] at hop
  rcases hop with rfl | rfl | rfl | rfl | rfl | rfl <;> rfl

/-- None of them writes the kernel's output array: each writes its own result buffer. -/
theorem tail_keep : ∀ ops ∈ [hostOps1 (F := F)], ∀ op ∈ ops, Proc.devRef .tc (Pipeline.arrRef spec0 9) ∉ op.writes := by
  have h : ∀ y : Ref sig .tc, y ≠ main_v2 → Proc.devRef (τ := τ) .tc (Pipeline.arrRef spec0 9) ∉ ({Proc.devRef .tc y} : Finset (DevRef τ sig)) :=
    fun y hy hm => hy (Proc.devRef_injective _ (Finset.mem_singleton.mp hm)).symm
  intro ops hops op hop
  rw [List.mem_singleton] at hops; subst hops
  simp only [List.mem_cons, List.mem_nil_iff, or_false] at hop
  rcases hop with rfl | rfl | rfl | rfl | rfl | rfl
  · exact h main_cst (by decide)
  · exact h main_v3 (by decide)
  · exact h main_v4 (by decide)
  · exact h main_v5 (by decide)
  · exact h main_v6 (by decide)
  · exact h main_v7 (by decide)

set_option backward.isDefEq.respectTransparency.types false in
/-- Every weakly fair execution of @main terminates; every window's array ends at what the library computes from the
    proof data, and every buffer no window stages at the six lines' result from the exit contents. -/
theorem run_main : θ_run defs (onTc (τ := τ) (main (F := F))) (s₀ m ρ)
    (fun r => ∀ c : Dev nD, (∀ w, r.2.mem (((cfgs 0).spec w).arr.view.loc (c.tc : Thread nD τ)) = (dats m 0 c).arrAt w (cfgs 0).N)
      ∧ ∀ b ∈ Pipeline.restRefs sig (cfgs 0).spec, r.2.mem ((c.tc : Thread nD τ).loc b)
          = StableHlo.after (List.flatten [hostOps1 (F := F)]) (Wv m c) (Proc.devRef .tc b)) :=
  SharedArrayFrameTail.θ_run_frame_shared_tail cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (opss := [hostOps1]) (hmain := hmain m Variants.none) (hsplit := hsplit m)
    (hΦ := fun _ _ => rfl) (w₀ := 9) (hshare₀ := fun _ => rfl) (Wv := Wv m) (hW₀ := Wv_out m)
    (hWr := fun c b hb => Wv_of_ne m c b fun e => (Finset.mem_sdiff.mp hb).2 (Finset.mem_image.mpr ⟨9, Finset.mem_univ _, e.symm⟩))
    (hsub := tail_sub) (hfresh := tail_fresh) (hkeep := tail_keep)

end Cert.KernelIdeal.Hand

end
-- ==== Proof.KernelIdealKept.lean ====
/-
  What the run leaves: every argument array as it was launched, and the result buffer at the six lines after the
  region applied to the kernel's output block and the output bias.
-/
import proofs.«114293_g33157147525407_cont_8to1_b_505_27_alg».proof.Proof.KernelIdealRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## The region-entry contents: the two reshapes write only their own results -/

theorem V_arg0 (c : Dev nD) : V m c main_arg0 = m ((c.tc : Thread nD τ).loc main_arg0) := by
  show StableHlo.after (hostOps0 (F := F)) (fun b => m (c, b)) (Proc.devRef .tc main_arg0) = _
  after_results <;> rfl
theorem V_arg1 (c : Dev nD) : V m c main_arg1 = m ((c.tc : Thread nD τ).loc main_arg1) := by
  show StableHlo.after (hostOps0 (F := F)) (fun b => m (c, b)) (Proc.devRef .tc main_arg1) = _
  after_results <;> rfl
theorem V_arg2 (c : Dev nD) : V m c main_arg2 = m ((c.tc : Thread nD τ).loc main_arg2) := by
  show StableHlo.after (hostOps0 (F := F)) (fun b => m (c, b)) (Proc.devRef .tc main_arg2) = _
  after_results <;> rfl
theorem V_arg3 (c : Dev nD) : V m c main_arg3 = m ((c.tc : Thread nD τ).loc main_arg3) := by
  show StableHlo.after (hostOps0 (F := F)) (fun b => m (c, b)) (Proc.devRef .tc main_arg3) = _
  after_results <;> rfl
theorem V_arg4 (c : Dev nD) : V m c main_arg4 = m ((c.tc : Thread nD τ).loc main_arg4) := by
  show StableHlo.after (hostOps0 (F := F)) (fun b => m (c, b)) (Proc.devRef .tc main_arg4) = _
  after_results <;> rfl
theorem V_arg5 (c : Dev nD) : V m c main_arg5 = m ((c.tc : Thread nD τ).loc main_arg5) := by
  show StableHlo.after (hostOps0 (F := F)) (fun b => m (c, b)) (Proc.devRef .tc main_arg5) = _
  after_results <;> rfl
theorem V_arg6 (c : Dev nD) : V m c main_arg6 = m ((c.tc : Thread nD τ).loc main_arg6) := by
  show StableHlo.after (hostOps0 (F := F)) (fun b => m (c, b)) (Proc.devRef .tc main_arg6) = _
  after_results <;> rfl

/-- The first bias vector as a row. -/
theorem V_v0 (c : Dev nD) : V m c main_v0 = shapeCast S1x64 (m ((c.tc : Thread nD τ).loc main_arg2)) shapeCasts_S64_S1x64 := by
  show StableHlo.after (hostOps0 (F := F)) (fun b => m (c, b)) (Proc.devRef .tc main_v0) = _
  after_results
  rfl
/-- The second bias vector as a row. -/
theorem V_v1 (c : Dev nD) : V m c main_v1 = shapeCast S1x64 (m ((c.tc : Thread nD τ).loc main_arg4)) shapeCasts_S64_S1x64 := by
  show StableHlo.after (hostOps0 (F := F)) (fun b => m (c, b)) (Proc.devRef .tc main_v1) = _
  after_results
  rfl

/-! ## The six lines after the region -/

/-- The six lines as one function of the kernel's output block `o` and the output bias `b3`: the block summed down its
    eight rows from zero, plus the bias (a one-element vector made a scalar and repeated), as a column. -/
def tailOf (o : FVec F S8x16384 .f32) (b3 : FVec F S1 .f32) : FVec F S16384x1 .f32 :=
  shapeCast S16384x1
    (addf (Host.reduceAdd o (constant S_ .f32 0x00000000#32) reducesTo_S8x16384_S16384_d0 h_S_)
      (broadcastInDim S16384 ![] bcast_S_S16384 (shapeCast S_ b3 shapeCasts_S1_S_)))
    shapeCasts_S16384_S16384x1

theorem tail_v7 (c : Dev nD) :
    StableHlo.after (List.flatten [hostOps1 (F := F)]) (Wv m c) (Proc.devRef .tc main_v7)
      = tailOf (Wv m c (Proc.devRef .tc main_v2)) (Wv m c (Proc.devRef .tc main_arg6)) := by
  show StableHlo.after (hostOps1 (F := F)) (Wv m c) (Proc.devRef .tc main_v7) = _
  after_results
  rfl

/-- The result buffer after the run. -/
theorem result_eq (c : Dev nD) :
    StableHlo.after (List.flatten [hostOps1 (F := F)]) (Wv m c) (Proc.devRef .tc main_v7)
      = tailOf ((dats m 0 c).arrAt 9 cfg0.N) (m ((c.tc : Thread nD τ).loc main_arg6)) := by
  rw [tail_v7, Wv_out, Wv_of_ne m c main_arg6 (by decide), V_arg6]

theorem tail_arg2 (c : Dev nD) :
    StableHlo.after (List.flatten [hostOps1 (F := F)]) (Wv m c) (Proc.devRef .tc main_arg2) = m ((c.tc : Thread nD τ).loc main_arg2) := by
  have h : StableHlo.after (List.flatten [hostOps1 (F := F)]) (Wv m c) (Proc.devRef .tc main_arg2) = Wv m c (Proc.devRef .tc main_arg2) := by
    show StableHlo.after (hostOps1 (F := F)) (Wv m c) (Proc.devRef .tc main_arg2) = _
    after_results <;> rfl
  rw [h, Wv_of_ne m c main_arg2 (by decide), V_arg2]
theorem tail_arg4 (c : Dev nD) :
    StableHlo.after (List.flatten [hostOps1 (F := F)]) (Wv m c) (Proc.devRef .tc main_arg4) = m ((c.tc : Thread nD τ).loc main_arg4) := by
  have h : StableHlo.after (List.flatten [hostOps1 (F := F)]) (Wv m c) (Proc.devRef .tc main_arg4) = Wv m c (Proc.devRef .tc main_arg4) := by
    show StableHlo.after (hostOps1 (F := F)) (Wv m c) (Proc.devRef .tc main_arg4) = _
    after_results <;> rfl
  rw [h, Wv_of_ne m c main_arg4 (by decide), V_arg4]
theorem tail_arg6 (c : Dev nD) :
    StableHlo.after (List.flatten [hostOps1 (F := F)]) (Wv m c) (Proc.devRef .tc main_arg6) = m ((c.tc : Thread nD τ).loc main_arg6) := by
  have h : StableHlo.after (List.flatten [hostOps1 (F := F)]) (Wv m c) (Proc.devRef .tc main_arg6) = Wv m c (Proc.devRef .tc main_arg6) := by
    show StableHlo.after (hostOps1 (F := F)) (Wv m c) (Proc.devRef .tc main_arg6) = _
    after_results <;> rfl
  rw [h, Wv_of_ne m c main_arg6 (by decide), V_arg6]

/-! ## The run, read -/

/-- Every weakly fair execution of @main terminates with the result buffer at `tailOf` of the kernel's final output array
    and the output bias, and every argument array as launched. -/
theorem run_read : θ_run defs (onTc (τ := τ) (main (F := F))) ⟨m, fun _ => 0, ρ⟩ (fun r => ∀ c : Dev nD,
      r.2.mem ((c.tc : Thread nD τ).loc main_v7) = tailOf ((dats m 0 c).arrAt 9 cfg0.N) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v7 (Pipeline.mem_restRefs_of _ rfl (by decide))).trans (result_eq m c),
      ((h c).1 0).trans (((dats m 0 c).arrAt_in 0 rfl _).trans ((A_eq m c 0).trans (V_arg0 m c))),
      ((h c).1 4).trans (((dats m 0 c).arrAt_in 4 rfl _).trans ((A_eq m c 4).trans (V_arg1 m c))),
      ((h c).2 main_arg2 (Pipeline.mem_restRefs_of _ rfl (by decide))).trans (tail_arg2 m c),
      ((h c).1 6).trans (((dats m 0 c).arrAt_in 6 rfl _).trans ((A_eq m c 6).trans (V_arg3 m c))),
      ((h c).2 main_arg4 (Pipeline.mem_restRefs_of _ rfl (by decide))).trans (tail_arg4 m c),
      ((h c).1 8).trans (((dats m 0 c).arrAt_in 8 rfl _).trans ((A_eq m c 8).trans (V_arg5 m c))),
      ((h c).2 main_arg6 (Pipeline.mem_restRefs_of _ rfl (by decide))).trans (tail_arg6 m c)⟩)
    (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_read m ρ)

end Cert.KernelIdeal.Hand

end
-- ==== Proof.LibMatmulRows.lean ====
/-
  A matrix product of ROWS WITH ROWS read at an entry, over the extended reals.

  A two-dimensional contraction `[M, K] × [N, K] → [M, N]` whose dimension numbers contract the SECOND axis of both
  operands — `A · Bᵀ`, the form a linear layer takes when its weight matrix is stored one row per output unit —,
  with no batch axis, accumulated into the zero matrix, has at the entry `(p, q)` the value
  `∑ k, lhs (p, k) * rhs (q, k)`: the sum over the `K` positions of the contracted axis of the products of the left
  operand's row `p` with the right operand's row `q`, with no order or grouping left in it.
-/
import Idealize.ShloMosaic.PureOps.Ideal.Laws
import Idealize.ShloMosaic.Lib.ValueIdx

noncomputable section

open scoped BigOperators
open Idealize.ShloMosaic Idealize.ShloMosaic.ValueIdx

namespace RowsMatmul

variable {M K N : ℕ}

/-- The dimension numbers of a product of rows with rows: both second axes contracted, no batch axis. -/
structure IsRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

theorem IsRows.rank (h : IsRows d) : d.contr.rank = 1 := by rw [d.rank_contr, h.lc]; rfl

theorem IsRows.size (h : IsRows d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsRows.lhs_row (h : IsRows d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at ITS row `q`, the output entry's column. -/
theorem IsRows.rhs_row (h : IsRows d) (j : (⟨2, ![M, N]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A product of rows with rows into the zero matrix, at the entry `(p, q)`, is the sum over the contracted axis of
    the products of the left operand's row `p` with the right operand's row `q`. -/
theorem apply {φ₁ φ₂ : FTy} (h : IsRows d) (prec : Option ContractPrecision)
    (lhs : FVec Ideal (⟨2, ![M, K]⟩ : Shape) φ₁) (rhs : FVec Ideal (⟨2, ![N, K]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 q k) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 q k := by
    funext a
    apply Fin.ext
    match a with
    | ⟨0, _⟩ => exact h.rhs_row _ _
    | ⟨1, _⟩ => exact (d.rhsIdx_val_of_single h.rc _ _).trans (contrEquiv1_symm_val d K h.rank h.size k)
  rw [hl, hr]

end RowsMatmul

end
-- ==== Proof.KernelIdealTile.lean ====
/-
  One row tile through the network, over the extended reals.

  Each of the body's four stores holds the same function of ONE row tile `x` (4096 rows of 128 features) and of the
  weights: two hidden layers, each a product of rows with the weight matrix's rows plus a bias row and a clamp at
  zero, and then the output unit replicated into eight rows — the weight row scaled by the constant 1/8 and
  repeated eight times, multiplied with the second hidden layer's rows.  Here the three layers are written once as
  functions, each payload is shown to be their composite, and each layer is read at an entry.
-/
import proofs.«114293_g33157147525407_cont_8to1_b_505_27_alg».proof.Proof.KernelIdealBody
import proofs.«114293_g33157147525407_cont_8to1_b_505_27_alg».proof.Proof.LibMatmulRows
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-- The first hidden layer of a row tile. -/
def layer1 (x : Vec Ideal S4096x128 .f32) (w1 : Vec Ideal S64x128 .f32) (b1 : Vec Ideal S1x64 .f32) : FVec Ideal S4096x64 .bf16 :=
  maximumf
    (addf
      (truncf .bf16 (matmul dot_S4096x128_S64x128_S4096x64_1_1_0_0_n_n none (truncf .bf16 x bitsLt_bf16_f32) (truncf .bf16 w1 bitsLt_bf16_f32)
        (constant S4096x64 .f32 0x00000000#32)) bitsLt_bf16_f32)
      (broadcastTo S4096x64 (truncf .bf16 (shapeCast S1x64 b1 shapeCasts_S1x64_S1x64) bitsLt_bf16_f32) broadcasts_S1x64_S4096x64))
    (broadcast S4096x64 (Scalar.ofBits .bf16 0x0000#16))

/-- The second hidden layer, of the first layer's rows. -/
def layer2 (h1 : FVec Ideal S4096x64 .bf16) (w2 : Vec Ideal S64x64 .f32) (b2 : Vec Ideal S1x64 .f32) : FVec Ideal S4096x64 .bf16 :=
  maximumf
    (addf
      (truncf .bf16 (matmul dot_S4096x64_S64x64_S4096x64_1_1_0_0_n_n none h1 (truncf .bf16 w2 bitsLt_bf16_f32)
        (constant S4096x64 .f32 0x00000000#32)) bitsLt_bf16_f32)
      (broadcastTo S4096x64 (truncf .bf16 (shapeCast S1x64 b2 shapeCasts_S1x64_S1x64) bitsLt_bf16_f32) broadcasts_S1x64_S4096x64))
    (broadcast S4096x64 (Scalar.ofBits .bf16 0x0000#16))

/-- The output unit replicated into eight rows: the weight row times the constant, repeated eight times, multiplied with
    the second layer's rows. -/
def head8 (h2 : FVec Ideal S4096x64 .bf16) (w3 : Vec Ideal S1x64 .f32) : FVec Ideal S8x4096 .f32 :=
  matmul dot_S8x64_S4096x64_S8x4096_1_1_0_0_n_n none
    (truncf .bf16 (broadcastTo S8x64 (shapeCast S1x64 (mulf w3 (broadcast S1x64 (Scalar.ofBits .f32 0x3E000000#32))) shapeCasts_S1x64_S1x64)
      broadcasts_S1x64_S8x64) bitsLt_bf16_f32)
    h2 (constant S8x4096 .f32 0x00000000#32)

/-- The whole tile: what one store holds. -/
def tile (x : Vec Ideal S4096x128 .f32) (w1 : Vec Ideal S64x128 .f32) (b1 : Vec Ideal S1x64 .f32) (w2 : Vec Ideal S64x64 .f32)
    (b2 : Vec Ideal S1x64 .f32) (w3 : Vec Ideal S1x64 .f32) : FVec Ideal S8x4096 .f32 :=
  head8 (layer2 (layer1 x w1 b1) w2 b2) w3

/-! ## Every store's payload is the tile of its rows -/

theorem hz : (![0, 0] : Fin 2 → Nat) = fun _ => 0 := funext fun a => by fin_cases a <;> rfl

theorem piece0_eq (x0 : Vec Ideal S4096x128 .f32) (w1 : Vec Ideal S64x128 .f32) (b1 : Vec Ideal S1x64 .f32) (w2 : Vec Ideal S64x64 .f32)
    (b2 : Vec Ideal S1x64 .f32) (w3 : Vec Ideal S1x64 .f32) : piece0 x0 w1 b1 w2 b2 w3 = tile x0 w1 b1 w2 b2 w3 := by
  unfold piece0
  simp only [View.ld_unit_zero (S := S4096x128) hz, View.ld_unit_zero (S := S64x128) hz, View.ld_unit_zero (S := S64x64) hz,
    View.ld_unit_zero (S := S1x64) hz]
  rfl

theorem piece1_eq (x1 : Vec Ideal S4096x128 .f32) (w1 : Vec Ideal S64x128 .f32) (b1 : Vec Ideal S1x64 .f32) (w2 : Vec Ideal S64x64 .f32)
    (b2 : Vec Ideal S1x64 .f32) (w3 : Vec Ideal S1x64 .f32) : piece1 x1 w1 b1 w2 b2 w3 = tile x1 w1 b1 w2 b2 w3 := by
  unfold piece1
  simp only [View.ld_unit_zero (S := S4096x128) hz, View.ld_unit_zero (S := S64x128) hz, View.ld_unit_zero (S := S64x64) hz,
    View.ld_unit_zero (S := S1x64) hz]
  rfl

theorem piece2_eq (x2 : Vec Ideal S4096x128 .f32) (w1 : Vec Ideal S64x128 .f32) (b1 : Vec Ideal S1x64 .f32) (w2 : Vec Ideal S64x64 .f32)
    (b2 : Vec Ideal S1x64 .f32) (w3 : Vec Ideal S1x64 .f32) : piece2 x2 w1 b1 w2 b2 w3 = tile x2 w1 b1 w2 b2 w3 := by
  unfold piece2
  simp only [View.ld_unit_zero (S := S4096x128) hz, View.ld_unit_zero (S := S64x128) hz, View.ld_unit_zero (S := S64x64) hz,
    View.ld_unit_zero (S := S1x64) hz]
  rfl

theorem piece3_eq (x3 : Vec Ideal S4096x128 .f32) (w1 : Vec Ideal S64x128 .f32) (b1 : Vec Ideal S1x64 .f32) (w2 : Vec Ideal S64x64 .f32)
    (b2 : Vec Ideal S1x64 .f32) (w3 : Vec Ideal S1x64 .f32) : piece3 x3 w1 b1 w2 b2 w3 = tile x3 w1 b1 w2 b2 w3 := by
  unfold piece3
  simp only [View.ld_unit_zero (S := S4096x128) hz, View.ld_unit_zero (S := S64x128) hz, View.ld_unit_zero (S := S64x64) hz,
    View.ld_unit_zero (S := S1x64) hz]
  rfl

/-! ## The layers at an entry -/

/-- The bf16 zero pattern denotes zero. -/
theorem zero_bf16 : Ideal.ofBits .bf16 0x0000#16 = 0 := by simp [Ideal.ofBits, Ideal.ieee]

theorem layer1_apply (x : Vec Ideal S4096x128 .f32) (w1 : Vec Ideal S64x128 .f32) (b1 : Vec Ideal S1x64 .f32) (r : Fin 4096) (j : Fin 64) :
    layer1 x w1 b1 (ix2 r j) = max (∑ k : Fin 128, (x (ix2 r k) : EReal) * (w1 (ix2 j k) : EReal) + (b1 (ix2 0 j) : EReal)) 0 := by
  unfold layer1
  rw [maximumf_apply, addf_apply, truncf_apply, broadcastTo_1b_ab_apply, truncf_apply, Idealize.ShloMosaic.shapeCast_self, broadcast_apply]
  exact congrArg₂ max (congrArg₂ (· + ·) (RowsMatmul.apply ⟨rfl, rfl, rfl, rfl, rfl, rfl⟩ none _ _ r j) rfl) zero_bf16

theorem layer2_apply (h1 : FVec Ideal S4096x64 .bf16) (w2 : Vec Ideal S64x64 .f32) (b2 : Vec Ideal S1x64 .f32) (r : Fin 4096) (j : Fin 64) :
    layer2 h1 w2 b2 (ix2 r j) = max (∑ k : Fin 64, (h1 (ix2 r k) : EReal) * (w2 (ix2 j k) : EReal) + (b2 (ix2 0 j) : EReal)) 0 := by
  unfold layer2
  rw [maximumf_apply, addf_apply, truncf_apply, broadcastTo_1b_ab_apply, truncf_apply, Idealize.ShloMosaic.shapeCast_self, broadcast_apply]
  exact congrArg₂ max (congrArg₂ (· + ·) (RowsMatmul.apply ⟨rfl, rfl, rfl, rfl, rfl, rfl⟩ none _ _ r j) rfl) zero_bf16

theorem head8_apply (h2 : FVec Ideal S4096x64 .bf16) (w3 : Vec Ideal S1x64 .f32) (j : Fin 8) (r : Fin 4096) :
    head8 h2 w3 (ix2 j r)
      = ∑ k : Fin 64, ((w3 (ix2 0 k) : EReal) * Ideal.ofBits .f32 0x3E000000#32) * (h2 (ix2 r k) : EReal) := by
  unfold head8
  refine (RowsMatmul.apply ⟨rfl, rfl, rfl, rfl, rfl, rfl⟩ none _ _ j r).trans ?_
  refine Finset.sum_congr rfl fun k _ => ?_
  rw [truncf_apply, broadcastTo_1b_ab_apply, Idealize.ShloMosaic.shapeCast_self, mulf_apply, broadcast_apply]
  rfl

end Cert.KernelIdeal.Hand

end
-- ==== Proof.MlpSpec.lean ====
/-
  The function both programs compute, entry by entry, over the extended reals: a perceptron with two hidden layers
  of 64 units and one output unit, applied to each of the 16384 rows of `x` (128 features each).

    hid1 r j = max (∑ k, x r k · W1 j k + b1 j) 0
    hid2 r j = max (∑ k, hid1 r k · W2 j k + b2 j) 0
    out  r   = ∑ k, hid2 r k · W3 0 k + b3 0

  The weight matrices are stored one ROW per output unit, so every layer contracts the second axis of both factors.
  Names no program: the shapes are written out as literals.
-/
import Idealize.ShloMosaic.PureOps.Ideal
import Idealize.ShloMosaic.Lib.ValueIdx

noncomputable section

open scoped BigOperators

namespace MlpSpec

open Idealize.ShloMosaic Idealize.ShloMosaic.ValueIdx

/-- The first hidden layer: unit `j` of row `r`. -/
def hid1 (x : FVec Ideal ⟨2, ![16384, 128]⟩ .f32) (w1 : FVec Ideal ⟨2, ![64, 128]⟩ .f32) (b1 : FVec Ideal ⟨1, ![64]⟩ .f32)
    (r : Fin 16384) (j : Fin 64) : EReal :=
  max (∑ k : Fin 128, x (ix2 r k) * w1 (ix2 j k) + b1 (ix1 j)) 0

/-- The second hidden layer: unit `j` of row `r`. -/
def hid2 (x : FVec Ideal ⟨2, ![16384, 128]⟩ .f32) (w1 : FVec Ideal ⟨2, ![64, 128]⟩ .f32) (b1 : FVec Ideal ⟨1, ![64]⟩ .f32)
    (w2 : FVec Ideal ⟨2, ![64, 64]⟩ .f32) (b2 : FVec Ideal ⟨1, ![64]⟩ .f32) (r : Fin 16384) (j : Fin 64) : EReal :=
  max (∑ k : Fin 64, hid1 x w1 b1 r k * w2 (ix2 j k) + b2 (ix1 j)) 0

/-- The output unit of every row, as a column. -/
def out (x : FVec Ideal ⟨2, ![16384, 128]⟩ .f32) (w1 : FVec Ideal ⟨2, ![64, 128]⟩ .f32) (b1 : FVec Ideal ⟨1, ![64]⟩ .f32)
    (w2 : FVec Ideal ⟨2, ![64, 64]⟩ .f32) (b2 : FVec Ideal ⟨1, ![64]⟩ .f32) (w3 : FVec Ideal ⟨2, ![1, 64]⟩ .f32)
    (b3 : FVec Ideal ⟨1, ![1]⟩ .f32) : FVec Ideal ⟨2, ![16384, 1]⟩ .f32 :=
  fun i => ∑ k : Fin 64, hid2 x w1 b1 w2 b2 (i 0) k * w3 (ix2 0 k) + b3 (ix1 0)

end MlpSpec

end
-- ==== Proof.LibHeadLaw.lean ====
/-
  The law behind a one-unit output head that is emitted as EIGHT identical rows of `W3 / 8` and summed afterwards.

  For a hidden row `h` and a weight row `w` over the extended reals,

      ∑ j < 8, ∑ k, (w k · ⅛) · h k  =  ∑ k, h k · w k.

  No finiteness is assumed. Multiplication of extended reals is commutative and associative, so each term is
  `⅛ · (h k · w k)`; a nonnegative FINITE constant distributes over every sum of extended reals, so the inner sum
  is `⅛ · B` with `B = ∑ k, h k · w k`; and eight copies of `⅛ · B` add up to `B` whether `B` is a real, `⊤` or `⊥`
  (`⅛ · ⊤ = ⊤`, `⅛ · ⊥ = ⊥`, and a sum of equal infinities is that infinity).
-/
import Idealize.ShloMosaic.PureOps.Ideal

open scoped BigOperators

namespace HeadLaw

open Idealize.ShloMosaic

/-- The single-precision pattern `0x3E000000` (sign 0, exponent 124, fraction 0) denotes `2⁻³ = 1/8`. -/
theorem eighth : Ideal.ofBits .f32 0x3E000000#32 = ((1 / 8 : ℝ) : EReal) := by
  simp [Ideal.ofBits, Ideal.ieee, -EReal.coe_mul]
  norm_num

/-- A nonnegative finite constant distributes over a finite sum of extended reals. -/
theorem mul_sum_of_nonneg_of_ne_top {ι : Type} (s : Finset ι) (c : EReal) (hc : 0 ≤ c) (hc' : c ≠ ⊤)
    (f : ι → EReal) : ∑ k ∈ s, c * f k = c * ∑ k ∈ s, f k := by
  classical
  induction s using Finset.induction_on with
  | empty => simp
  | insert a s ha ih =>
    rw [Finset.sum_insert ha, Finset.sum_insert ha, ih, EReal.left_distrib_of_nonneg_of_ne_top hc hc']

/-- Eight copies of an eighth of `B` add up to `B`, for every extended real `B`. -/
theorem eight_eighths (B : EReal) : ∑ _j : Fin 8, ((1 / 8 : ℝ) : EReal) * B = B := by
  induction B using EReal.rec with
  | bot =>
    rw [EReal.coe_mul_bot_of_pos (by norm_num)]
    simp only [Fin.sum_univ_eight, EReal.bot_add]
  | top =>
    rw [EReal.coe_mul_top_of_pos (by norm_num)]
    simp only [Fin.sum_univ_eight, EReal.top_add_top]
  | coe b =>
    simp only [Fin.sum_univ_eight, ← EReal.coe_mul, ← EReal.coe_add]
    congr 1
    ring

/-- The replicated head, without the reduction's initial value. -/
theorem head_sum (w h : Fin 64 → EReal) :
    ∑ _j : Fin 8, ∑ k : Fin 64, (w k * ((1 / 8 : ℝ) : EReal)) * h k = ∑ k : Fin 64, h k * w k := by
  have e : ∀ k : Fin 64, (w k * ((1 / 8 : ℝ) : EReal)) * h k = ((1 / 8 : ℝ) : EReal) * (h k * w k) := fun k => by
    rw [mul_comm (w k), mul_assoc, mul_comm (w k)]
  simp only [e]
  rw [mul_sum_of_nonneg_of_ne_top Finset.univ _ (EReal.coe_nonneg.2 (by norm_num)) (EReal.coe_ne_top _)]
  exact eight_eighths _

/-- The replicated head with the reduction's zero in front. -/
theorem head_law (w h : Fin 64 → EReal) (z : EReal) (hz : z = 0) :
    z + ∑ _j : Fin 8, ∑ k : Fin 64, (w k * ((1 / 8 : ℝ) : EReal)) * h k = ∑ k : Fin 64, h k * w k := by
  rw [hz, zero_add, head_sum]

/-- The replicated head with the reduction's zero behind. -/
theorem head_law_right (w h : Fin 64 → EReal) (z : EReal) (hz : z = 0) :
    (∑ _j : Fin 8, ∑ k : Fin 64, (w k * ((1 / 8 : ℝ) : EReal)) * h k) + z = ∑ k : Fin 64, h k * w k := by
  rw [hz, add_zero, head_sum]

end HeadLaw
-- ==== Proof.KernelIdealValue.lean ====
/-
  The idealized kernel's result, entry by entry, is the perceptron of the specification.

  After the run the kernel's output array holds, in column `r` of each of its eight rows, the replicated output head
  of batch row `r`: the row tiles are rows 0–4095, 4096–8191, 8192–12287 and 12288–16383 of the batch, and the
  s-th quarter of the output block is the tile function of the s-th row tile.  The lines after the region add the
  eight rows up and add the output bias.  Eight copies of (weight · 1/8) · activation add up to weight · activation
  on the extended reals, with no finiteness asked (the head law), so the result is the specification's `out`.
-/
import proofs.«114293_g33157147525407_cont_8to1_b_505_27_alg».proof.Proof.KernelIdealKept
import proofs.«114293_g33157147525407_cont_8to1_b_505_27_alg».proof.Proof.KernelIdealTile
import proofs.«114293_g33157147525407_cont_8to1_b_505_27_alg».proof.Proof.MlpSpec
import proofs.«114293_g33157147525407_cont_8to1_b_505_27_alg».proof.Proof.LibHeadLaw
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-! ## The output array after the run -/

/-- The printed index maps at the grid's one point: the output block and the weights' blocks sit at block 0 on both axes,
    row tile `s` at block `s` of the batch's rows. -/
theorem idx_facts : ∀ t : Fin cfg0.N,
    win0_0.index t (0 : Fin 2) = 0 ∧ win0_0.index t (1 : Fin 2) = 0 ∧ win0_1.index t (0 : Fin 2) = 1 ∧ win0_1.index t (1 : Fin 2) = 0
    ∧ win0_2.index t (0 : Fin 2) = 2 ∧ win0_2.index t (1 : Fin 2) = 0 ∧ win0_3.index t (0 : Fin 2) = 3 ∧ win0_3.index t (1 : Fin 2) = 0
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0) :=
  (by decide +kernel : ∀ t : Fin grid0.N, _)

/-- The output block the body leaves at point `t`, as a function of the array's index. -/
def outArrAt (c : Dev nD) (t : Fin cfg0.N) : S8x16384.Idx → Elt Ideal .f32 :=
  outBlock (iblk m c 0 t) (iblk m c 1 t) (iblk m c 2 t) (iblk m c 3 t) (iblk m c 4 t) (iblk m c 5 t)
    (iblk m c 6 t) (iblk m c 7 t) (iblk m c 8 t)

/-- What the output array ends holding: the output block at the grid's one point. -/
def outArr (c : Dev nD) : S8x16384.Idx → Elt Ideal .f32 := outArrAt m c t0_0

/-- What point `t` writes back, at an entry: what the body left in the output window's buffer there. -/
theorem flushed_at (c : Dev nD) (t : Fin cfg0.N) (y : ((cfg0.win 9).xblock (cfg0.grid.coords t)).Idx) :
    (dats m 0 c).flushed 9 t y = (dats m 0 c).after 9 t ((cfg0.win 9).xinj (grid0.coords t) y) := rfl

/-- The output array read through point `t`'s block, at an entry. -/
theorem read_at (t : Fin cfg0.N) (G : S8x16384.Idx → Elt Ideal .f32) (y : ((cfg0.win 9).xblock (cfg0.grid.coords t)).Idx) :
    ((cfg0.win 9).blk t).view.read (Elt Ideal) G y = G (((cfg0.win 9).blk t).view.emb y) := rfl

theorem after9' (c : Dev nD) (t : Fin cfg0.N) : (dats m 0 c).after 9 t = outArrAt m c t := after9 m c t

/-- What point `t` writes back is the whole of its output block: the block is the array. -/
theorem flushed9 (c : Dev nD) (t : Fin cfg0.N) :
    (dats m 0 c).flushed 9 t = ((cfg0.win 9).blk t).view.read (Elt Ideal) (outArrAt m c t) := by
  funext y
  rw [flushed_at, read_at, after9']
  refine congrArg (outArrAt m c t) (funext fun a => Fin.ext ?_)
  have h9 := (idx_facts t).2.2.2.2.2.2.2.2.2.2.2.2.2
  match a with
  | ⟨0, _⟩ => show (y 0).val = win0_9.index t (0 : Fin 2) * 8 + 1 * (y 0).val; rw [h9]; omega
  | ⟨1, _⟩ => show (y 1).val = win0_9.index t (1 : Fin 2) * 16384 + 1 * (y 1).val; rw [h9]; omega

/-- An index of the array is in the point's block iff each coordinate is in the block's range on its axis. -/
theorem mem_blk9 (t : Fin cfg0.N) (i : S8x16384.Idx) :
    i ∈ ((cfg0.win 9).blk t).view.set ↔ ∀ a : Fin 2, win0_9.index t a * S8x16384.size a ≤ (i a).val
      ∧ (i a).val < win0_9.index t a * S8x16384.size a + S8x16384.size a := by
  show i ∈ ((View.whole main_v2).slice (win0_9.rect t)).set ↔ _
  rw [View.set_slice_whole, Rect.mem_set_unit]
  exact Iff.rfl

/-- THE OUTPUT ARRAY after the run. -/
theorem final9 (c : Dev nD) : (dats m 0 c).arrAt 9 cfg0.N = outArr m c :=
  (dats m 0 c).arrAt_eq_of_cover 9 (outArr m c)
    (fun t _ => (flushed9 m c t).trans (congrArg (fun t' => ((cfg0.win 9).blk t).view.read (Elt Ideal) (outArrAt m c t')) (fin_N0 t))) fun i =>
    ⟨t0_0, flush0_9 t0_0, (mem_blk9 t0_0 i).mpr fun a => by
      rw [(idx_facts t0_0).2.2.2.2.2.2.2.2.2.2.2.2.2 a, Nat.zero_mul, Nat.zero_add]
      exact ⟨Nat.zero_le _, (i a).isLt⟩⟩

/-! ## The input blocks are rows of the arguments -/

theorem blk0_apply (c : Dev nD) (r : Fin 4096) (k : Fin 128) :
    iblk m c 0 t0_0 (ix2 r k) = m ((c.tc : Thread nD τ).loc main_arg0) (ix2 ⟨0 + r.val, by omega⟩ k) := by
  unfold iblk
  rw [show V m c (Pipeline.arrRef spec0 0) = m ((c.tc : Thread nD τ).loc main_arg0) from V_arg0 m c]
  show m ((c.tc : Thread nD τ).loc main_arg0) (((cfg0.win 0).blk t0_0).view.emb (ix2 r k)) = _
  refine congrArg _ (funext fun a => Fin.ext ?_)
  obtain ⟨e0, e1, -⟩ := idx_facts t0_0
  match a with
  | ⟨0, _⟩ => show win0_0.index t0_0 (0 : Fin 2) * 4096 + 1 * r.val = 0 + r.val; rw [e0]; omega
  | ⟨1, _⟩ => show win0_0.index t0_0 (1 : Fin 2) * 128 + 1 * k.val = k.val; rw [e1]; omega

theorem blk1_apply (c : Dev nD) (r : Fin 4096) (k : Fin 128) :
    iblk m c 1 t0_0 (ix2 r k) = m ((c.tc : Thread nD τ).loc main_arg0) (ix2 ⟨4096 + r.val, by omega⟩ k) := by
  unfold iblk
  rw [show V m c (Pipeline.arrRef spec0 1) = m ((c.tc : Thread nD τ).loc main_arg0) from V_arg0 m c]
  show m ((c.tc : Thread nD τ).loc main_arg0) (((cfg0.win 1).blk t0_0).view.emb (ix2 r k)) = _
  refine congrArg _ (funext fun a => Fin.ext ?_)
  obtain ⟨-, -, e0, e1, -⟩ := idx_facts t0_0
  match a with
  | ⟨0, _⟩ => show win0_1.index t0_0 (0 : Fin 2) * 4096 + 1 * r.val = 4096 + r.val; rw [e0]; omega
  | ⟨1, _⟩ => show win0_1.index t0_0 (1 : Fin 2) * 128 + 1 * k.val = k.val; rw [e1]; omega

theorem blk2_apply (c : Dev nD) (r : Fin 4096) (k : Fin 128) :
    iblk m c 2 t0_0 (ix2 r k) = m ((c.tc : Thread nD τ).loc main_arg0) (ix2 ⟨8192 + r.val, by omega⟩ k) := by
  unfold iblk
  rw [show V m c (Pipeline.arrRef spec0 2) = m ((c.tc : Thread nD τ).loc main_arg0) from V_arg0 m c]
  show m ((c.tc : Thread nD τ).loc main_arg0) (((cfg0.win 2).blk t0_0).view.emb (ix2 r k)) = _
  refine congrArg _ (funext fun a => Fin.ext ?_)
  obtain ⟨-, -, -, -, e0, e1, -⟩ := idx_facts t0_0
  match a with
  | ⟨0, _⟩ => show win0_2.index t0_0 (0 : Fin 2) * 4096 + 1 * r.val = 8192 + r.val; rw [e0]; omega
  | ⟨1, _⟩ => show win0_2.index t0_0 (1 : Fin 2) * 128 + 1 * k.val = k.val; rw [e1]; omega

theorem blk3_apply (c : Dev nD) (r : Fin 4096) (k : Fin 128) :
    iblk m c 3 t0_0 (ix2 r k) = m ((c.tc : Thread nD τ).loc main_arg0) (ix2 ⟨12288 + r.val, by omega⟩ k) := by
  unfold iblk
  rw [show V m c (Pipeline.arrRef spec0 3) = m ((c.tc : Thread nD τ).loc main_arg0) from V_arg0 m c]
  show m ((c.tc : Thread nD τ).loc main_arg0) (((cfg0.win 3).blk t0_0).view.emb (ix2 r k)) = _
  refine congrArg _ (funext fun a => Fin.ext ?_)
  obtain ⟨-, -, -, -, -, -, e0, e1, -⟩ := idx_facts t0_0
  match a with
  | ⟨0, _⟩ => show win0_3.index t0_0 (0 : Fin 2) * 4096 + 1 * r.val = 12288 + r.val; rw [e0]; omega
  | ⟨1, _⟩ => show win0_3.index t0_0 (1 : Fin 2) * 128 + 1 * k.val = k.val; rw [e1]; omega

/-- The first layer's weights' block is the whole array. -/
theorem blk4_eq (c : Dev nD) : iblk m c 4 t0_0 = m ((c.tc : Thread nD τ).loc main_arg1) := by
  unfold iblk
  rw [show V m c (Pipeline.arrRef spec0 4) = m ((c.tc : Thread nD τ).loc main_arg1) from V_arg1 m c]
  funext y
  show m ((c.tc : Thread nD τ).loc main_arg1) (((cfg0.win 4).blk t0_0).view.emb y) = _
  refine congrArg _ (funext fun a => Fin.ext ?_)
  show win0_4.index t0_0 a * S64x128.size a + 1 * (y a).val = (y a).val
  rw [(idx_facts t0_0).2.2.2.2.2.2.2.2.1 a]; omega

/-- The second layer's weights' block is the whole array. -/
theorem blk6_eq (c : Dev nD) : iblk m c 6 t0_0 = m ((c.tc : Thread nD τ).loc main_arg3) := by
  unfold iblk
  rw [show V m c (Pipeline.arrRef spec0 6) = m ((c.tc : Thread nD τ).loc main_arg3) from V_arg3 m c]
  funext y
  show m ((c.tc : Thread nD τ).loc main_arg3) (((cfg0.win 6).blk t0_0).view.emb y) = _
  refine congrArg _ (funext fun a => Fin.ext ?_)
  show win0_6.index t0_0 a * S64x64.size a + 1 * (y a).val = (y a).val
  rw [(idx_facts t0_0).2.2.2.2.2.2.2.2.2.2.1 a]; omega

/-- The output unit's weights' block is the whole array. -/
theorem blk8_eq (c : Dev nD) : iblk m c 8 t0_0 = m ((c.tc : Thread nD τ).loc main_arg5) := by
  unfold iblk
  rw [show V m c (Pipeline.arrRef spec0 8) = m ((c.tc : Thread nD τ).loc main_arg5) from V_arg5 m c]
  funext y
  show m ((c.tc : Thread nD τ).loc main_arg5) (((cfg0.win 8).blk t0_0).view.emb y) = _
  refine congrArg _ (funext fun a => Fin.ext ?_)
  show win0_8.index t0_0 a * S1x64.size a + 1 * (y a).val = (y a).val
  rw [(idx_facts t0_0).2.2.2.2.2.2.2.2.2.2.2.2.1 a]; omega

/-- The first bias row's block at `(0, j)` is entry `j` of the bias vector. -/
theorem blk5_apply (c : Dev nD) (j : Fin 64) :
    iblk m c 5 t0_0 (ix2 0 j) = m ((c.tc : Thread nD τ).loc main_arg2) (ix1 j) := by
  unfold iblk
  rw [show V m c (Pipeline.arrRef spec0 5) = shapeCast S1x64 (m ((c.tc : Thread nD τ).loc main_arg2)) shapeCasts_S64_S1x64 from V_v0 m c]
  show shapeCast S1x64 (m ((c.tc : Thread nD τ).loc main_arg2)) shapeCasts_S64_S1x64 (((cfg0.win 5).blk t0_0).view.emb (ix2 0 j)) = _
  have e : ((cfg0.win 5).blk t0_0).view.emb (ix2 (0 : Fin 1) j) = ix2 (0 : Fin 1) j := by
    funext a; apply Fin.ext
    show win0_5.index t0_0 a * S1x64.size a + 1 * ((ix2 (0 : Fin 1) j) a).val = ((ix2 (0 : Fin 1) j) a).val
    rw [(idx_facts t0_0).2.2.2.2.2.2.2.2.2.1 a]; omega
  rw [e]
  exact shapeCast_a_1a_apply _ _ 0 j

/-- The second bias row's block at `(0, j)` is entry `j` of the bias vector. -/
theorem blk7_apply (c : Dev nD) (j : Fin 64) :
    iblk m c 7 t0_0 (ix2 0 j) = m ((c.tc : Thread nD τ).loc main_arg4) (ix1 j) := by
  unfold iblk
  rw [show V m c (Pipeline.arrRef spec0 7) = shapeCast S1x64 (m ((c.tc : Thread nD τ).loc main_arg4)) shapeCasts_S64_S1x64 from V_v1 m c]
  show shapeCast S1x64 (m ((c.tc : Thread nD τ).loc main_arg4)) shapeCasts_S64_S1x64 (((cfg0.win 7).blk t0_0).view.emb (ix2 0 j)) = _
  have e : ((cfg0.win 7).blk t0_0).view.emb (ix2 (0 : Fin 1) j) = ix2 (0 : Fin 1) j := by
    funext a; apply Fin.ext
    show win0_7.index t0_0 a * S1x64.size a + 1 * ((ix2 (0 : Fin 1) j) a).val = ((ix2 (0 : Fin 1) j) a).val
    rw [(idx_facts t0_0).2.2.2.2.2.2.2.2.2.2.2.1 a]; omega
  rw [e]
  exact shapeCast_a_1a_apply _ _ 0 j

/-! ## A tile of rows through the network is the specification's second hidden layer under the replicated head -/

/-- For a row tile `x` that is rows `off … off + 4095` of the batch `a0`, and bias rows that are the bias vectors, the tile
    function at `(j, r)` is the scaled head over the specification's second hidden layer of batch row `off + r` — the
    same for each of the eight replicas `j`. -/
theorem tile_spec (a0 : FVec Ideal ⟨2, ![16384, 128]⟩ .f32) (a1 : FVec Ideal ⟨2, ![64, 128]⟩ .f32) (a2 : FVec Ideal ⟨1, ![64]⟩ .f32)
    (a3 : FVec Ideal ⟨2, ![64, 64]⟩ .f32) (a4 : FVec Ideal ⟨1, ![64]⟩ .f32) (a5 : FVec Ideal ⟨2, ![1, 64]⟩ .f32)
    (x : Vec Ideal S4096x128 .f32) (b1r b2r : Vec Ideal S1x64 .f32) (off : ℕ) (hoff : off + 4096 ≤ 16384)
    (hx : ∀ (r : Fin 4096) (k : Fin 128), x (ix2 r k) = a0 (ix2 ⟨off + r.val, by omega⟩ k))
    (hb1 : ∀ j : Fin 64, b1r (ix2 0 j) = a2 (ix1 j)) (hb2 : ∀ j : Fin 64, b2r (ix2 0 j) = a4 (ix1 j))
    (j : Fin 8) (r : Fin 4096) :
    tile x a1 b1r a3 b2r a5 (ix2 j r)
      = ∑ k : Fin 64, ((a5 (ix2 0 k) : EReal) * Ideal.ofBits .f32 0x3E000000#32) * MlpSpec.hid2 a0 a1 a2 a3 a4 ⟨off + r.val, by omega⟩ k := by
  unfold tile
  rw [head8_apply]
  refine Finset.sum_congr rfl fun k _ => congrArg (((a5 (ix2 0 k) : EReal) * Ideal.ofBits .f32 0x3E000000#32) * ·) ?_
  rw [layer2_apply, hb2]
  unfold MlpSpec.hid2
  refine congrArg (max · 0) (congrArg (· + (a4 (ix1 k) : EReal)) (Finset.sum_congr rfl fun k' _ => congrArg (· * (a3 (ix2 k k') : EReal)) ?_))
  rw [layer1_apply, hb1]
  unfold MlpSpec.hid1
  exact congrArg (max · 0) (congrArg (· + (a2 (ix1 k') : EReal)) (Finset.sum_congr rfl fun k'' _ => by rw [hx]))

end Cert.KernelIdeal.Hand

end
-- ==== Proof.KernelIdealResult.lean ====
/-
  The idealized kernel's result is the specification's `out` of its arguments.
-/
import proofs.«114293_g33157147525407_cont_8to1_b_505_27_alg».proof.Proof.KernelIdealValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- What every one of the eight rows of the output array holds in column `r`: the output unit's weights, each scaled by
    the constant, against the second hidden layer of batch row `r`. -/
def rowVal (a0 : FVec Ideal ⟨2, ![16384, 128]⟩ .f32) (a1 : FVec Ideal ⟨2, ![64, 128]⟩ .f32) (a2 : FVec Ideal ⟨1, ![64]⟩ .f32)
    (a3 : FVec Ideal ⟨2, ![64, 64]⟩ .f32) (a4 : FVec Ideal ⟨1, ![64]⟩ .f32) (a5 : FVec Ideal ⟨2, ![1, 64]⟩ .f32) (r : Fin 16384) : EReal :=
  ∑ k : Fin 64, ((a5 (ix2 0 k) : EReal) * Ideal.ofBits .f32 0x3E000000#32) * MlpSpec.hid2 a0 a1 a2 a3 a4 r k

/-- Quarter 0 of the output array: columns 0 … 4095. -/
theorem outArr_q0 (c : Dev nD) (j : Fin 8) (rv : ℕ) (h : rv < 4096) (hb : 0 + rv < 16384) :
    outArr m c (ix2 j (⟨0 + rv, hb⟩ : Fin 16384)) = rowVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨0 + rv, hb⟩ := by
  have h3 : ix2 j (⟨0 + rv, hb⟩ : Fin 16384) ∉ (rO3).set := fun hm => by
    have hh : 12288 ≤ 0 + rv ∧ 0 + rv < 12288 + 4096 := (Rect.mem_set_unit.mp hm) 1
    omega
  have h2 : ix2 j (⟨0 + rv, hb⟩ : Fin 16384) ∉ (rO2).set := fun hm => by
    have hh : 8192 ≤ 0 + rv ∧ 0 + rv < 8192 + 4096 := (Rect.mem_set_unit.mp hm) 1
    omega
  have h1 : ix2 j (⟨0 + rv, hb⟩ : Fin 16384) ∉ (rO1).set := fun hm => by
    have hh : 4096 ≤ 0 + rv ∧ 0 + rv < 4096 + 4096 := (Rect.mem_set_unit.mp hm) 1
    omega
  have e : ix2 j (⟨0 + rv, hb⟩ : Fin 16384) = (rO0).emb (ix2 j (⟨rv, h⟩ : Fin 4096)) := by
    funext a; apply Fin.ext
    match a with
    | ⟨0, _⟩ => show j.val = 0 + 1 * j.val; omega
    | ⟨1, _⟩ => show 0 + rv = 0 + 1 * rv; omega
  unfold outArr outArrAt outBlock
  refine (View.canon_cons_of_not_mem ⟨rO3, _⟩ _ h3).trans ?_
  refine (View.canon_cons_of_not_mem ⟨rO2, _⟩ _ h2).trans ?_
  refine (View.canon_cons_of_not_mem ⟨rO1, _⟩ _ h1).trans ?_
  rw [e, View.canon_cons_emb, piece0_eq, blk4_eq, blk6_eq, blk8_eq]
  exact tile_spec _ _ _ _ _ _ _ _ _ 0 (by omega) (blk0_apply m c) (blk5_apply m c) (blk7_apply m c) j ⟨rv, h⟩

/-- Quarter 1 of the output array: columns 4096 … 8191. -/
theorem outArr_q1 (c : Dev nD) (j : Fin 8) (rv : ℕ) (h : rv < 4096) (hb : 4096 + rv < 16384) :
    outArr m c (ix2 j (⟨4096 + rv, hb⟩ : Fin 16384)) = rowVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨4096 + rv, hb⟩ := by
  have h3 : ix2 j (⟨4096 + rv, hb⟩ : Fin 16384) ∉ (rO3).set := fun hm => by
    have hh : 12288 ≤ 4096 + rv ∧ 4096 + rv < 12288 + 4096 := (Rect.mem_set_unit.mp hm) 1
    omega
  have h2 : ix2 j (⟨4096 + rv, hb⟩ : Fin 16384) ∉ (rO2).set := fun hm => by
    have hh : 8192 ≤ 4096 + rv ∧ 4096 + rv < 8192 + 4096 := (Rect.mem_set_unit.mp hm) 1
    omega
  have e : ix2 j (⟨4096 + rv, hb⟩ : Fin 16384) = (rO1).emb (ix2 j (⟨rv, h⟩ : Fin 4096)) := by
    funext a; apply Fin.ext
    match a with
    | ⟨0, _⟩ => show j.val = 0 + 1 * j.val; omega
    | ⟨1, _⟩ => show 4096 + rv = 4096 + 1 * rv; omega
  unfold outArr outArrAt outBlock
  refine (View.canon_cons_of_not_mem ⟨rO3, _⟩ _ h3).trans ?_
  refine (View.canon_cons_of_not_mem ⟨rO2, _⟩ _ h2).trans ?_
  rw [e, View.canon_cons_emb, piece1_eq, blk4_eq, blk6_eq, blk8_eq]
  exact tile_spec _ _ _ _ _ _ _ _ _ 4096 (by omega) (blk1_apply m c) (blk5_apply m c) (blk7_apply m c) j ⟨rv, h⟩

/-- Quarter 2 of the output array: columns 8192 … 12287. -/
theorem outArr_q2 (c : Dev nD) (j : Fin 8) (rv : ℕ) (h : rv < 4096) (hb : 8192 + rv < 16384) :
    outArr m c (ix2 j (⟨8192 + rv, hb⟩ : Fin 16384)) = rowVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨8192 + rv, hb⟩ := by
  have h3 : ix2 j (⟨8192 + rv, hb⟩ : Fin 16384) ∉ (rO3).set := fun hm => by
    have hh : 12288 ≤ 8192 + rv ∧ 8192 + rv < 12288 + 4096 := (Rect.mem_set_unit.mp hm) 1
    omega
  have e : ix2 j (⟨8192 + rv, hb⟩ : Fin 16384) = (rO2).emb (ix2 j (⟨rv, h⟩ : Fin 4096)) := by
    funext a; apply Fin.ext
    match a with
    | ⟨0, _⟩ => show j.val = 0 + 1 * j.val; omega
    | ⟨1, _⟩ => show 8192 + rv = 8192 + 1 * rv; omega
  unfold outArr outArrAt outBlock
  refine (View.canon_cons_of_not_mem ⟨rO3, _⟩ _ h3).trans ?_
  rw [e, View.canon_cons_emb, piece2_eq, blk4_eq, blk6_eq, blk8_eq]
  exact tile_spec _ _ _ _ _ _ _ _ _ 8192 (by omega) (blk2_apply m c) (blk5_apply m c) (blk7_apply m c) j ⟨rv, h⟩

/-- Quarter 3 of the output array: columns 12288 … 16383. -/
theorem outArr_q3 (c : Dev nD) (j : Fin 8) (rv : ℕ) (h : rv < 4096) (hb : 12288 + rv < 16384) :
    outArr m c (ix2 j (⟨12288 + rv, hb⟩ : Fin 16384)) = rowVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨12288 + rv, hb⟩ := by

  have e : ix2 j (⟨12288 + rv, hb⟩ : Fin 16384) = (rO3).emb (ix2 j (⟨rv, h⟩ : Fin 4096)) := by
    funext a; apply Fin.ext
    match a with
    | ⟨0, _⟩ => show j.val = 0 + 1 * j.val; omega
    | ⟨1, _⟩ => show 12288 + rv = 12288 + 1 * rv; omega
  unfold outArr outArrAt outBlock
  rw [e, View.canon_cons_emb, piece3_eq, blk4_eq, blk6_eq, blk8_eq]
  exact tile_spec _ _ _ _ _ _ _ _ _ 12288 (by omega) (blk3_apply m c) (blk5_apply m c) (blk7_apply m c) j ⟨rv, h⟩

/-- Every entry of the output array: row `j`, column `r` holds the row value of batch row `r`. -/
theorem outArr_apply (c : Dev nD) (j : Fin 8) (r : Fin 16384) :
    outArr m c (ix2 j r) = rowVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r := by
  obtain ⟨rv, hr⟩ := r
  by_cases h1 : rv < 4096
  · have e : (⟨rv, hr⟩ : Fin 16384) = ⟨0 + rv, by omega⟩ := Fin.ext (by show rv = 0 + rv; omega)
    rw [e]; exact outArr_q0 m c j rv h1 _
  by_cases h2 : rv < 8192
  · have e : (⟨rv, hr⟩ : Fin 16384) = ⟨4096 + (rv - 4096), by omega⟩ := Fin.ext (by show rv = 4096 + (rv - 4096); omega)
    rw [e]; exact outArr_q1 m c j (rv - 4096) (by omega) _
  by_cases h3 : rv < 12288
  · have e : (⟨rv, hr⟩ : Fin 16384) = ⟨8192 + (rv - 8192), by omega⟩ := Fin.ext (by show rv = 8192 + (rv - 8192); omega)
    rw [e]; exact outArr_q2 m c j (rv - 8192) (by omega) _
  · have e : (⟨rv, hr⟩ : Fin 16384) = ⟨12288 + (rv - 12288), by omega⟩ := Fin.ext (by show rv = 12288 + (rv - 12288); omega)
    rw [e]; exact outArr_q3 m c j (rv - 12288) (by omega) _

/-! ## The six lines after the region, at an entry -/

/-- The block summed down its eight rows from zero, at column `r`. -/
theorem rowsum_apply (o : FVec Ideal S8x16384 .f32) (r : Fin 16384) :
    Host.reduceAdd (F := Ideal) o (constant (F := Ideal) S_ .f32 0x00000000#32) reducesTo_S8x16384_S16384_d0 h_S_ (ix1 r)
      = 0 + ∑ j : Fin 8, (o (ix2 j r) : EReal) := by
  have hR : S8x16384.Reduces [0] S16384 := by decide
  unfold Host.reduceAdd
  refine (Ideal.hostReduceAdd_single reducesTo_S8x16384_S16384_d0 hR o _ (ix1 r)).trans ?_
  refine congrArg₂ (· + ·) Ideal.ofBits_zero_f32 (Finset.sum_congr rfl fun k _ => congrArg o (funext fun a => Fin.ext ?_))
  match a with
  | ⟨0, _⟩ => rfl
  | ⟨1, _⟩ => rfl

/-- The result column at row `r`: the eight rows' sum from zero, plus the output bias. -/
theorem tail_at (o : FVec Ideal S8x16384 .f32) (b3 : FVec Ideal S1 .f32) (r : Fin 16384) :
    tailOf (F := Ideal) o b3 (ix2 r (0 : Fin 1)) = (0 + ∑ j : Fin 8, (o (ix2 j r) : EReal)) + (b3 (ix1 0) : EReal) := by
  unfold tailOf
  rw [shapeCast_apply _ _ (ix2 r (0 : Fin 1)) (ix1 r) (by
    rw [Shape.rowMajor_val_one, Shape.rowMajor_val_two]
    show r.val = r.val * 1 + 0
    omega), addf_apply, rowsum_apply]
  refine congrArg ((0 + ∑ j : Fin 8, (o (ix2 j r) : EReal)) + ·) ?_
  rw [broadcastInDim_apply _ _ _ (ix1 r) ix0 (fun a => a.elim0)]
  refine shapeCast_apply _ _ ix0 (ix1 (0 : Fin 1)) ?_
  rw [Shape.rowMajor_val_one]
  have hlt : ((S_.rowMajor ix0 : Fin S_.numel) : ℕ) < 1 := (S_.rowMajor ix0).isLt
  exact (Nat.lt_one_iff.mp hlt).symm

/-! ## The result -/

/-- THE KERNEL'S RESULT: the six lines applied to the output array after the run and the output bias are the
    specification's `out` of the seven arguments. -/
theorem kernel_result (c : Dev nD) :
    tailOf (F := Ideal) ((dats m 0 c).arrAt 9 cfg0.N) (m ((c.tc : Thread nD τ).loc main_arg6))
      = MlpSpec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [final9]
  funext i
  obtain ⟨r, u, rfl⟩ : ∃ (r : Fin 16384) (u : Fin 1), i = ix2 r u := ⟨i 0, i 1, eq_ix2 i⟩
  obtain rfl : u = 0 := Subsingleton.elim _ _
  rw [tail_at]
  unfold MlpSpec.out
  refine congrArg (· + (m ((c.tc : Thread nD τ).loc main_arg6) (ix1 0) : EReal)) ?_
  simp only [outArr_apply]
  unfold rowVal
  rw [HeadLaw.eighth]
  exact HeadLaw.head_law (fun k => (m ((c.tc : Thread nD τ).loc main_arg5) (ix2 0 k) : EReal))
    (fun k => MlpSpec.hid2 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r k) 0 rfl

end Cert.KernelIdeal.Hand

end
-- ==== Proof.RefSide.lean ====
/-
  The reference program computes the perceptron of `MlpSpec`, entry by entry.

  Each layer of the reference is a `dot_general` of the activations with the TRANSPOSE of the weight matrix, a bias
  row broadcast over the batch, and (for the two hidden layers) a maximum against a broadcast zero. Read at row `r`
  and unit `j`, the contraction is `∑ k, activation (r, k) · weight (j, k)`: the left factor is read at `(r, k)`, the
  transposed weight at `(k, j)`, that is the weight itself at `(j, k)`; the bias is read at `j`; the zero pattern
  denotes the real number zero. These are exactly `MlpSpec.hid1`, `MlpSpec.hid2` and `MlpSpec.out`.
-/
import proofs.«114293_g33157147525407_cont_8to1_b_505_27_alg».proof.Proof.Gen.ReferenceIdeal.Read
import Idealize.ShloMosaic.Lib.ValueIdx
import Idealize.ShloMosaic.Lib.Pipeline.Value
import Idealize.ShloMosaic.PureOps.Ideal.Laws
import proofs.«114293_g33157147525407_cont_8to1_b_505_27_alg».proof.Proof.MlpSpec

noncomputable section

open scoped BigOperators

namespace Cert.ReferenceIdeal.RefSpec

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The reference's first hidden layer (after its maximum against zero) at row `r`, unit `j`. -/
theorem hidden1 (a0 : FVec Ideal S16384x128 .f32) (a1 : FVec Ideal S64x128 .f32) (a2 : FVec Ideal S64 .f32)
    (r : Fin 16384) (j : Fin 64) :
    val_main_v5 (F := Ideal) a0 a1 a2 (ix2 r j) = MlpSpec.hid1 a0 a1 a2 r j := by
  have el : ∀ k : Fin 128, lidx_main_v1 (ix2 r j) k = ix2 r k := fun k =>
    funext fun a => Fin.ext (by match a with | ⟨0, _⟩ => rfl | ⟨1, _⟩ => rfl)
  have er : ∀ k : Fin 128, idx_main_v0 (ridx_main_v1 (ix2 r j) k) = ix2 j k := fun k =>
    funext fun a => Fin.ext (by match a with | ⟨0, _⟩ => rfl | ⟨1, _⟩ => rfl)
  have eb : idx_main_v2 (idx_main_v3 (ix2 r j)) = ix1 j :=
    funext fun a => Fin.ext (by match a with | ⟨0, _⟩ => rfl)
  rw [val_main_v5_apply, val_main_v4_apply, val_main_v1_apply, val_main_v3_apply, val_main_v2_apply,
    val_main_call0_v0_apply, val_main_call0_cst_apply]
  simp only [val_main_v0_apply, el, er, eb, Ideal.addf_def, Ideal.maximumf_def, Ideal.ofBits_def,
    Ideal.ofBits_zero_f32]
  rfl

/-- The reference's second hidden layer (after its maximum against zero) at row `r`, unit `j`. -/
theorem hidden2 (a0 : FVec Ideal S16384x128 .f32) (a1 : FVec Ideal S64x128 .f32) (a2 : FVec Ideal S64 .f32)
    (a3 : FVec Ideal S64x64 .f32) (a4 : FVec Ideal S64 .f32) (r : Fin 16384) (j : Fin 64) :
    val_main_v11 (F := Ideal) a0 a1 a2 a3 a4 (ix2 r j) = MlpSpec.hid2 a0 a1 a2 a3 a4 r j := by
  have el : ∀ k : Fin 64, lidx_main_v7 (ix2 r j) k = ix2 r k := fun k =>
    funext fun a => Fin.ext (by match a with | ⟨0, _⟩ => rfl | ⟨1, _⟩ => rfl)
  have er : ∀ k : Fin 64, idx_main_v6 (ridx_main_v7 (ix2 r j) k) = ix2 j k := fun k =>
    funext fun a => Fin.ext (by match a with | ⟨0, _⟩ => rfl | ⟨1, _⟩ => rfl)
  have eb : idx_main_v8 (idx_main_v9 (ix2 r j)) = ix1 j :=
    funext fun a => Fin.ext (by match a with | ⟨0, _⟩ => rfl)
  rw [val_main_v11_apply, val_main_v10_apply, val_main_v7_apply, val_main_v9_apply, val_main_v8_apply,
    val_main_call1_v0_apply, val_main_call1_cst_apply]
  simp only [val_main_v6_apply, el, er, eb, hidden1, Ideal.addf_def, Ideal.maximumf_def, Ideal.ofBits_def,
    Ideal.ofBits_zero_f32]
  rfl

/-- The reference's last stage is the perceptron's output column. -/
theorem ref_eq (a0 : FVec Ideal S16384x128 .f32) (a1 : FVec Ideal S64x128 .f32) (a2 : FVec Ideal S64 .f32)
    (a3 : FVec Ideal S64x64 .f32) (a4 : FVec Ideal S64 .f32) (a5 : FVec Ideal S1x64 .f32) (a6 : FVec Ideal S1 .f32) :
    val_main_v16 (F := Ideal) a0 a1 a2 a3 a4 a5 a6 = MlpSpec.out a0 a1 a2 a3 a4 a5 a6 := by
  funext i
  obtain ⟨r, q, rfl⟩ : ∃ (r : Fin 16384) (q : Fin 1), i = ix2 r q := ⟨i 0, i 1, eq_ix2 i⟩
  obtain rfl : q = 0 := Subsingleton.elim q 0
  have el : ∀ k : Fin 64, lidx_main_v13 (ix2 r (0 : Fin 1)) k = ix2 r k := fun k =>
    funext fun a => Fin.ext (by match a with | ⟨0, _⟩ => rfl | ⟨1, _⟩ => rfl)
  have er : ∀ k : Fin 64, idx_main_v12 (ridx_main_v13 (ix2 r (0 : Fin 1)) k) = ix2 (0 : Fin 1) k := fun k =>
    funext fun a => Fin.ext (by match a with | ⟨0, _⟩ => rfl | ⟨1, _⟩ => rfl)
  have eb : idx_main_v14 (idx_main_v15 (ix2 r (0 : Fin 1))) = ix1 (0 : Fin 1) :=
    funext fun a => Fin.ext (by match a with | ⟨0, _⟩ => rfl)
  rw [val_main_v16_apply, val_main_v13_apply, val_main_v15_apply, val_main_v14_apply]
  simp only [val_main_v12_apply, el, er, eb, hidden2, Ideal.addf_def]
  rfl

/-- The same, for the composed term the reference's run states for its result. -/
theorem ref_term_eq (a0 : FVec Ideal S16384x128 .f32) (a1 : FVec Ideal S64x128 .f32) (a2 : FVec Ideal S64 .f32)
    (a3 : FVec Ideal S64x64 .f32) (a4 : FVec Ideal S64 .f32) (a5 : FVec Ideal S1x64 .f32) (a6 : FVec Ideal S1 .f32) :
    addf (Host.dotGeneral dot_S16384x64_S64x1_S16384x1_1_0_0_1_n_n none (maximumf (addf (Host.dotGeneral dot_S16384x64_S64x64_S16384x64_1_0_0_1_n_n none (maximumf (addf (Host.dotGeneral dot_S16384x128_S128x64_S16384x64_1_0_0_1_n_n none (a0) (transpose S128x64 [1, 0] (a1) transposes_S64x128_S128x64_1_0)) (broadcastInDim S16384x64 ![0, 1] bcast_S1x64_S16384x64_0_1 (broadcastInDim S1x64 ![1] bcast_S64_S1x64_1 (a2)))) (broadcastInDim S16384x64 ![] bcast_S_S16384x64 (constant (F := Ideal) S_ .f32 0x00000000#32))) (transpose S64x64 [1, 0] (a3) transposes_S64x64_S64x64_1_0)) (broadcastInDim S16384x64 ![0, 1] bcast_S1x64_S16384x64_0_1 (broadcastInDim S1x64 ![1] bcast_S64_S1x64_1 (a4)))) (broadcastInDim S16384x64 ![] bcast_S_S16384x64 (constant (F := Ideal) S_ .f32 0x00000000#32))) (transpose S64x1 [1, 0] (a5) transposes_S1x64_S64x1_1_0)) (broadcastInDim S16384x1 ![0, 1] bcast_S1x1_S16384x1_0_1 (broadcastInDim S1x1 ![1] bcast_S1_S1x1_1 (a6)))
      = MlpSpec.out a0 a1 a2 a3 a4 a5 a6 :=
  (val_main_v16_eq (F := Ideal) a0 a1 a2 a3 a4 a5 a6).trans (ref_eq a0 a1 a2 a3 a4 a5 a6)

end Cert.ReferenceIdeal.RefSpec

end
-- ==== Proof.lean ====
/-
  A three-layer perceptron — 128 features, two hidden layers of 64 units clamped at zero, one output unit — over a
  batch of 16384 rows: a fused kernel against the plain composition of three matrix products.

  The kernel goes through the batch in four row tiles of 4096, keeps both hidden layers on chip, and writes the
  output unit REPLICATED: its weight row is scaled by 1/8 and repeated eight times, so that the kernel's output is an
  8 × 16384 block whose eight rows are equal; the rows are added up afterwards and the output bias is added.  Over the
  extended reals a change of float format is the identity, a matrix product is its textbook sum, and eight copies of
  (w · 1/8) · h add up to w · h for ANY extended reals — a positive finite constant distributes over every sum — so
  both programs compute the same function of their arguments (`MlpSpec.out`), and no finiteness of the inputs is used.

  The four row-tile windows read one and the same batch array, so the frame of the kernel program is run with that
  array's share dealt in quarters among them; the reference's frame is its run with the result dropped.  The
  idealization rewrote nothing, so there is nothing to preserve.
-/
import proofs.«114293_g33157147525407_cont_8to1_b_505_27_alg».proof.Defs
import proofs.«114293_g33157147525407_cont_8to1_b_505_27_alg».proof.Proof.KernelKept
import proofs.«114293_g33157147525407_cont_8to1_b_505_27_alg».proof.Proof.KernelIdealResult
import proofs.«114293_g33157147525407_cont_8to1_b_505_27_alg».proof.Proof.RefSide
import proofs.«114293_g33157147525407_cont_8to1_b_505_27_alg».proof.Proof.Gen.ReferenceIdeal.Run
import proofs.«114293_g33157147525407_cont_8to1_b_505_27_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with their result at the perceptron of the arguments. -/
theorem algebraic : Cert.algebraic_KernelIdeal_ReferenceIdeal := by
  intro m ρ m' ρ' _ hagree
  refine ⟨fun c => MlpSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.kernel_result m c), (h c).2⟩)
      (Cert.KernelIdeal.Hand.run_read (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefSpec.ref_term_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
